-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S3x1x1 : Shape := ⟨3, ![3, 1, 1]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S3x1x1 : S_.BroadcastsInDim S3x1x1 (![] : Fin 0 → Fin S3x1x1.rank)
  reducesTo_S3x1x1_S_d0_1_2 : S3x1x1.ReducesTo [0, 1, 2] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_

variable [Facts]

def fn_part2 {F : FTy → Type} [FloatOps F] (main_arg7 : FVec F S256x128 .f32) (main_arg8 : FVec F S128 .f32) (main_arg9 : FVec F S128x1 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg9
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  main_v48

def fn_part1 {F : FTy → Type} [FloatOps F] (main_arg4 : FVec F S3x1x1 .f32) (main_arg5 : FVec F S128x256 .f32) (main_arg6 : FVec F S256 .f32) (main_arg7 : FVec F S256x128 .f32) (main_arg8 : FVec F S128 .f32) (main_arg9 : FVec F S128x1 .f32) (main_v13 : IVec S_ 1) (main_v16 : IVec S3x1x1 1) : IVec S_ 1 :=
  let main_c_5 : IVec S_ 1 := constantI S_ 1 1#1
  let main_v17 : IVec S_ 1 := (fun x v => Host.reduce IntOp.andi x v reducesTo_S3x1x1_S_d0_1_2 h_S_) main_v16 main_c_5
  let main_v18 : IVec S_ 1 := andi main_v13 main_v17
  let main_v19 : FVec F S3x1x1 .f32 := Host.absf main_arg4
  let main_cst_6 : FVec F S_ .f32 := constant S_ .f32 0x7F800000#32
  let main_v20 : FVec F S3x1x1 .f32 := broadcastInDim S3x1x1 ![] bcast_S_S3x1x1 main_cst_6
  let main_v21 : IVec S3x1x1 1 := cmpf .olt main_v19 main_v20
  let main_c_7 : IVec S_ 1 := constantI S_ 1 1#1
  let main_v22 : IVec S_ 1 := (fun x v => Host.reduce IntOp.andi x v reducesTo_S3x1x1_S_d0_1_2 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_v33

def fn {F : FTy → Type} [FloatOps F] (main_arg0 : FVec F S4096x128 .f32) (main_arg1 : FVec F S3x1x1 .f32) (main_arg2 : FVec F S3x1x1 .f32) (main_arg3 : FVec F S3x1x1 .f32) (main_arg4 : FVec F S3x1x1 .f32) (main_arg5 : FVec F S128x256 .f32) (main_arg6 : FVec F S256 .f32) (main_arg7 : FVec F S256x128 .f32) (main_arg8 : FVec F S128 .f32) (main_arg9 : FVec F S128x1 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S3x1x1 .f32 := Host.absf main_arg1
  let main_cst_0 : FVec F S_ .f32 := constant S_ .f32 0x7F800000#32
  let main_v5 : FVec F S3x1x1 .f32 := broadcastInDim S3x1x1 ![] bcast_S_S3x1x1 main_cst_0
  let main_v6 : IVec S3x1x1 1 := cmpf .olt main_v4 main_v5
  let main_c_1 : IVec S_ 1 := constantI S_ 1 1#1
  let main_v7 : IVec S_ 1 := (fun x v => Host.reduce IntOp.andi x v reducesTo_S3x1x1_S_d0_1_2 h_S_) main_v6 main_c_1
  let main_v8 : IVec S_ 1 := andi main_v3 main_v7
  let main_v9 : FVec F S3x1x1 .f32 := Host.absf main_arg2
  let main_cst_2 : FVec F S_ .f32 := constant S_ .f32 0x7F800000#32
  let main_v10 : FVec F S3x1x1 .f32 := broadcastInDim S3x1x1 ![] bcast_S_S3x1x1 main_cst_2
  let main_v11 : IVec S3x1x1 1 := cmpf .olt main_v9 main_v10
  let main_c_3 : IVec S_ 1 := constantI S_ 1 1#1
  let main_v12 : IVec S_ 1 := (fun x v => Host.reduce IntOp.andi x v reducesTo_S3x1x1_S_d0_1_2 h_S_) main_v11 main_c_3
  let main_v13 : IVec S_ 1 := andi main_v8 main_v12
  let main_v14 : FVec F S3x1x1 .f32 := Host.absf main_arg3
  let main_cst_4 : FVec F S_ .f32 := constant S_ .f32 0x7F800000#32
  let main_v15 : FVec F S3x1x1 .f32 := broadcastInDim S3x1x1 ![] bcast_S_S3x1x1 main_cst_4
  let main_v16 : IVec S3x1x1 1 := cmpf .olt main_v14 main_v15
  fn_part1 (F := F) main_arg4 main_arg5 main_arg6 main_arg7 main_arg8 main_arg9 main_v13 main_v16
-- ==== Kernel.lean ====
abbrev S4096x128 : Shape := ⟨2, ![4096, 128]⟩
abbrev S3x1x1 : Shape := ⟨3, ![3, 1, 1]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S4096x1 : Shape := ⟨2, ![4096, 1]⟩
abbrev S1x1x1 : Shape := ⟨3, ![1, 1, 1]⟩
abbrev S128x128 : Shape := ⟨2, ![128, 128]⟩
abbrev S128x128x1 : Shape := ⟨3, ![128, 128, 1]⟩
abbrev S128x1x128 : Shape := ⟨3, ![128, 1, 128]⟩
abbrev S128x128x128 : Shape := ⟨3, ![128, 128, 128]⟩
abbrev S1x256 : Shape := ⟨2, ![1, 256]⟩
abbrev S1x128 : Shape := ⟨2, ![1, 128]⟩

abbrev nBuf : Space → Nat
  | .hbm => 11
  | .vmem => 18
  | .smem => 0
  | _ => 0

abbrev bufTy : (tb : Table) → Fin (tcTables nBuf tb) → BufTy
  | .hbm, ⟨0, _⟩ => ⟨S4096x128, .f32⟩
  | .hbm, ⟨1, _⟩ => ⟨S3x1x1, .f32⟩
  | .hbm, ⟨2, _⟩ => ⟨S3x1x1, .f32⟩
  | .hbm, ⟨3, _⟩ => ⟨S3x1x1, .f32⟩
  | .hbm, ⟨4, _⟩ => ⟨S3x1x1, .f32⟩
  | .hbm, ⟨5, _⟩ => ⟨S128x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128x1, .f32⟩
  | .hbm, ⟨10, _⟩ => ⟨S4096x1, .f32⟩
  | .local _ .vmem, ⟨0, _⟩ => ⟨S1x1x1, .f32⟩
  | .local _ .vmem, ⟨1, _⟩ => ⟨S1x1x1, .f32⟩
  | .local _ .vmem, ⟨2, _⟩ => ⟨S1x1x1, .f32⟩
  | .local _ .vmem, ⟨3, _⟩ => ⟨S1x1x1, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S128x128, .f32⟩
  | .local _ .vmem, ⟨9, _⟩ => ⟨S128x128, .f32⟩
  | .local _ .vmem, ⟨10, _⟩ => ⟨S128x256, .f32⟩
  | .local _ .vmem, ⟨11, _⟩ => ⟨S256, .f32⟩
  | .local _ .vmem, ⟨12, _⟩ => ⟨S256x128, .f32⟩
  | .local _ .vmem, ⟨13, _⟩ => ⟨S128, .f32⟩
  | .local _ .vmem, ⟨14, _⟩ => ⟨S128x1, .f32⟩
  | .local _ .vmem, ⟨15, _⟩ => ⟨S128x1, .f32⟩
  | .local _ .vmem, ⟨16, _⟩ => ⟨S128x1, .f32⟩
  | .local _ .vmem, ⟨17, _⟩ => ⟨S128x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![32, 3], ![false, false]⟩

def k0_cond2 (i : grid0.Coords) : BitVec 1 :=
  let arg1 : BitVec 32 := BitVec.ofNat 32 (i 1).val
  let c2_i32 : BitVec 32 := 2#32
  let v44 : BitVec 1 := Scalar.cmpi .eq arg1 c2_i32
  let v45 : BitVec 32 := Scalar.extui v44
  let c0_i32_19 : BitVec 32 := 0#32
  let v46 : BitVec 1 := Scalar.cmpi .ne v45 c0_i32_19
  v46

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x1x1_S1x1x1_0_0_0 : ∀ a, (![0, 0, 0] : Fin 3 → Nat) a + S1x1x1.size a ≤ S1x1x1.size a
  h_S1x1x1 : 0 < S1x1x1.numel
  inpos_S1x1x1_p0_0_0 : ∀ a, (![0, 0, 0] : Fin 3 → Nat) a < S1x1x1.size a
  shapeCasts_S128x128_S128x128x1 : S128x128.ShapeCasts S128x128x1
  shapeCasts_S128x128_S128x1x128 : S128x128.ShapeCasts S128x1x128
  broadcasts_S128x128x1_S128x128x128 : S128x128x1.Broadcasts S128x128x128
  broadcasts_S128x1x128_S128x128x128 : S128x1x128.Broadcasts S128x128x128
  reduces_S128x128x128_S128x128 : S128x128x128.Reduces [2] S128x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S128x256 : S1x256.Broadcasts S128x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S128x128 : S1x128.Broadcasts S128x128
  inb_S128x1_S128x1_0_0 : ∀ a, (![0, 0] : Fin 2 → Nat) a + S128x1.size a ≤ S128x1.size a
  h_S128x1 : 0 < S128x1.numel
  dot_S128x128_S128x256_S128x256_1_0_0_1_n_n_wf : DotDims.WF S128x128 S128x256 S128x256 [1] [0] [0] [1] [] []
  dot_S128x256_S256x128_S128x128_1_0_0_1_n_n_wf : DotDims.WF S128x256 S256x128 S128x128 [1] [0] [0] [1] [] []
  dot_S128x128_S128x1_S128x1_1_0_0_1_n_n_wf : DotDims.WF S128x128 S128x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1.size a ≤ S3x1x1.size a
  hwx0_0 : ∀ i : grid0.Coords, EltTy.bits .f32 = 32 ∨ (Rect.block (s := S3x1x1) S1x1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1.size a ≤ S3x1x1.size a
  hwx0_1 : ∀ i : grid0.Coords, EltTy.bits .f32 = 32 ∨ (Rect.block (s := S3x1x1) S1x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S3x1x1.size a
  hwx0_2 : ∀ i : grid0.Coords, EltTy.bits .f32 = 32 ∨ (Rect.block (s := S3x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S3x1x1.size a
  hwx0_3 : ∀ i : grid0.Coords, EltTy.bits .f32 = 32 ∨ (Rect.block (s := S3x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S4096x128.size a
  hwx0_4 : ∀ i : grid0.Coords, EltTy.bits .f32 = 32 ∨ (Rect.block (s := S4096x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x1.size a ≤ S128x1.size a
  hwx0_9 : ∀ i : grid0.Coords, EltTy.bits .f32 = 32 ∨ (Rect.block (s := S128x1) S128x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S4096x1.size a
  hwx0_10 : ∀ i : grid0.Coords, EltTy.bits .f32 = 32 ∨ (Rect.block (s := S4096x1) S128x1.size (cc0_transform_10 i) (hinb0_10 i)).WholeWords (EltTy.packing .f32)

variable [Facts₀]

def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf

abbrev win0_0 : Pipeline.Window sig grid0 :=
  Pipeline.Window.ofSpec (Memref.whole main_arg1) S1x1x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x1x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0) S128x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S4096x128 : Shape := ⟨2, ![4096, 128]⟩
abbrev S3x1x1 : Shape := ⟨3, ![3, 1, 1]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S4096x128x1 : Shape := ⟨3, ![4096, 128, 1]⟩
abbrev S1x1x1 : Shape := ⟨3, ![1, 1, 1]⟩
abbrev S1x1 : Shape := ⟨2, ![1, 1]⟩
abbrev S4096x128x128 : Shape := ⟨3, ![4096, 128, 128]⟩
abbrev S_ : Shape := ⟨0, ![]⟩
abbrev S4096x256 : Shape := ⟨2, ![4096, 256]⟩
abbrev S1x256 : Shape := ⟨2, ![1, 256]⟩
abbrev S1x128 : Shape := ⟨2, ![1, 128]⟩
abbrev S4096x1 : Shape := ⟨2, ![4096, 1]⟩

abbrev nBuf : Space → Nat
  | .hbm => 123
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S3x1x1, .f32⟩
  | .hbm, ⟨2, _⟩ => ⟨S3x1x1, .f32⟩
  | .hbm, ⟨3, _⟩ => ⟨S3x1x1, .f32⟩
  | .hbm, ⟨4, _⟩ => ⟨S3x1x1, .f32⟩
  | .hbm, ⟨5, _⟩ => ⟨S128x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128x1, .f32⟩
  | .hbm, ⟨10, _⟩ => ⟨S4096x128x1, .f32⟩
  | .hbm, ⟨11, _⟩ => ⟨S1x1x1, .f32⟩
  | .hbm, ⟨12, _⟩ => ⟨S1x1, .f32⟩
  | .hbm, ⟨13, _⟩ => ⟨S1x1x1, .f32⟩
  | .hbm, ⟨14, _⟩ => ⟨S1x1, .f32⟩
  | .hbm, ⟨15, _⟩ => ⟨S1x1x1, .f32⟩
  | .hbm, ⟨16, _⟩ => ⟨S1x1, .f32⟩
  | .hbm, ⟨17, _⟩ => ⟨S1x1x1, .f32⟩
  | .hbm, ⟨18, _⟩ => ⟨S1x1, .f32⟩
  | .hbm, ⟨19, _⟩ => ⟨S4096x128x1, .f32⟩
  | .hbm, ⟨20, _⟩ => ⟨S4096x128x1, .f32⟩
  | .hbm, ⟨21, _⟩ => ⟨S4096x128x1, .f32⟩
  | .hbm, ⟨22, _⟩ => ⟨S4096x128x128, .f32⟩
  | .hbm, ⟨23, _⟩ => ⟨S_, .f32⟩
  | .hbm, ⟨24, _⟩ => ⟨S4096x128, .f32⟩
  | .hbm, ⟨25, _⟩ => ⟨S_, .f32⟩
  | .hbm, ⟨26, _⟩ => ⟨S4096x128, .f32⟩
  | .hbm, ⟨27, _⟩ => ⟨S4096x128, .f32⟩
  | .hbm, ⟨28, _⟩ => ⟨S4096x128x1, .f32⟩
  | .hbm, ⟨29, _⟩ => ⟨S4096x128x128, .f32⟩
  | .hbm, ⟨30, _⟩ => ⟨S4096x128x128, .f32⟩
  | .hbm, ⟨31, _⟩ => ⟨S4096x128x128, .f32⟩
  | .hbm, ⟨32, _⟩ => ⟨S_, .f32⟩
  | .hbm, ⟨33, _⟩ => ⟨S4096x128, .f32⟩
  | .hbm, ⟨34, _⟩ => ⟨S4096x128x1, .f32⟩
  | .hbm, ⟨35, _⟩ => ⟨S4096x128x128, .f32⟩
  | .hbm, ⟨36, _⟩ => ⟨S4096x128x128, .f32⟩
  | .hbm, ⟨37, _⟩ => ⟨S4096x128x1, .f32⟩
  | .hbm, ⟨38, _⟩ => ⟨S4096x128x1, .f32⟩
  | .hbm, ⟨39, _⟩ => ⟨S4096x128x1, .f32⟩
  | .hbm, ⟨40, _⟩ => ⟨S_, .f32⟩
  | .hbm, ⟨41, _⟩ => ⟨S4096x128x1, .f32⟩
  | .hbm, ⟨42, _⟩ => ⟨S4096x128x1, .f32⟩
  | .hbm, ⟨43, _⟩ => ⟨S1x1x1, .f32⟩
  | .hbm, ⟨44, _⟩ => ⟨S1x1, .f32⟩
  | .hbm, ⟨45, _⟩ => ⟨S1x1x1, .f32⟩
  | .hbm, ⟨46, _⟩ => ⟨S1x1, .f32⟩
  | .hbm, ⟨47, _⟩ => ⟨S1x1x1, .f32⟩
  | .hbm, ⟨48, _⟩ => ⟨S1x1, .f32⟩
  | .hbm, ⟨49, _⟩ => ⟨S1x1x1, .f32⟩
  | .hbm, ⟨50, _⟩ => ⟨S1x1, .f32⟩
  | .hbm, ⟨51, _⟩ => ⟨S4096x128x1, .f32⟩
  | .hbm, ⟨52, _⟩ => ⟨S4096x128x1, .f32⟩
  | .hbm, ⟨53, _⟩ => ⟨S4096x128x1, .f32⟩
  | .hbm, ⟨54, _⟩ => ⟨S4096x128x128, .f32⟩
  | .hbm, ⟨55, _⟩ => ⟨S_, .f32⟩
  | .hbm, ⟨56, _⟩ => ⟨S4096x128, .f32⟩
  | .hbm, ⟨57, _⟩ => ⟨S_, .f32⟩
  | .hbm, ⟨58, _⟩ => ⟨S4096x128, .f32⟩
  | .hbm, ⟨59, _⟩ => ⟨S4096x128, .f32⟩
  | .hbm, ⟨60, _⟩ => ⟨S4096x128x1, .f32⟩
  | .hbm, ⟨61, _⟩ => ⟨S4096x128x128, .f32⟩
  | .hbm, ⟨62, _⟩ => ⟨S4096x128x128, .f32⟩
  | .hbm, ⟨63, _⟩ => ⟨S4096x128x128, .f32⟩
  | .hbm, ⟨64, _⟩ => ⟨S_, .f32⟩
  | .hbm, ⟨65, _⟩ => ⟨S4096x128, .f32⟩
  | .hbm, ⟨66, _⟩ => ⟨S4096x128x1, .f32⟩
  | .hbm, ⟨67, _⟩ => ⟨S4096x128x128, .f32⟩
  | .hbm, ⟨68, _⟩ => ⟨S4096x128x128, .f32⟩
  | .hbm, ⟨69, _⟩ => ⟨S4096x128x1, .f32⟩
  | .hbm, ⟨70, _⟩ => ⟨S4096x128x1, .f32⟩
  | .hbm, ⟨71, _⟩ => ⟨S4096x128x1, .f32⟩
  | .hbm, ⟨72, _⟩ => ⟨S_, .f32⟩
  | .hbm, ⟨73, _⟩ => ⟨S4096x128x1, .f32⟩
  | .hbm, ⟨74, _⟩ => ⟨S4096x128x1, .f32⟩
  | .hbm, ⟨75, _⟩ => ⟨S1x1x1, .f32⟩
  | .hbm, ⟨76, _⟩ => ⟨S1x1, .f32⟩
  | .hbm, ⟨77, _⟩ => ⟨S1x1x1, .f32⟩
  | .hbm, ⟨78, _⟩ => ⟨S1x1, .f32⟩
  | .hbm, ⟨79, _⟩ => ⟨S1x1x1, .f32⟩
  | .hbm, ⟨80, _⟩ => ⟨S1x1, .f32⟩
  | .hbm, ⟨81, _⟩ => ⟨S1x1x1, .f32⟩
  | .hbm, ⟨82, _⟩ => ⟨S1x1, .f32⟩
  | .hbm, ⟨83, _⟩ => ⟨S4096x128x1, .f32⟩
  | .hbm, ⟨84, _⟩ => ⟨S4096x128x1, .f32⟩
  | .hbm, ⟨85, _⟩ => ⟨S4096x128x1, .f32⟩
  | .hbm, ⟨86, _⟩ => ⟨S4096x128x128, .f32⟩
  | .hbm, ⟨87, _⟩ => ⟨S_, .f32⟩
  | .hbm, ⟨88, _⟩ => ⟨S4096x128, .f32⟩
  | .hbm, ⟨89, _⟩ => ⟨S_, .f32⟩
  | .hbm, ⟨90, _⟩ => ⟨S4096x128, .f32⟩
  | .hbm, ⟨91, _⟩ => ⟨S4096x128, .f32⟩
  | .hbm, ⟨92, _⟩ => ⟨S4096x128x1, .f32⟩
  | .hbm, ⟨93, _⟩ => ⟨S4096x128x128, .f32⟩
  | .hbm, ⟨94, _⟩ => ⟨S4096x128x128, .f32⟩
  | .hbm, ⟨95, _⟩ => ⟨S4096x128x128, .f32⟩
  | .hbm, ⟨96, _⟩ => ⟨S_, .f32⟩
  | .hbm, ⟨97, _⟩ => ⟨S4096x128, .f32⟩
  | .hbm, ⟨98, _⟩ => ⟨S4096x128x1, .f32⟩
  | .hbm, ⟨99, _⟩ => ⟨S4096x128x128, .f32⟩
  | .hbm, ⟨100, _⟩ => ⟨S4096x128x128, .f32⟩
  | .hbm, ⟨101, _⟩ => ⟨S4096x128x1, .f32⟩
  | .hbm, ⟨102, _⟩ => ⟨S4096x128x1, .f32⟩
  | .hbm, ⟨103, _⟩ => ⟨S4096x128x1, .f32⟩
  | .hbm, ⟨104, _⟩ => ⟨S_, .f32⟩
  | .hbm, ⟨105, _⟩ => ⟨S4096x128x1, .f32⟩
  | .hbm, ⟨106, _⟩ => ⟨S4096x128x1, .f32⟩
  | .hbm, ⟨107, _⟩ => ⟨S4096x128, .f32⟩
  | .hbm, ⟨108, _⟩ => ⟨S4096x256, .f32⟩
  | .hbm, ⟨109, _⟩ => ⟨S1x256, .f32⟩
  | .hbm, ⟨110, _⟩ => ⟨S4096x256, .f32⟩
  | .hbm, ⟨111, _⟩ => ⟨S4096x256, .f32⟩
  | .hbm, ⟨112, _⟩ => ⟨S_, .f32⟩
  | .hbm, ⟨113, _⟩ => ⟨S4096x256, .f32⟩
  | .hbm, ⟨114, _⟩ => ⟨S4096x256, .f32⟩
  | .hbm, ⟨115, _⟩ => ⟨S4096x128, .f32⟩
  | .hbm, ⟨116, _⟩ => ⟨S1x128, .f32⟩
  | .hbm, ⟨117, _⟩ => ⟨S4096x128, .f32⟩
  | .hbm, ⟨118, _⟩ => ⟨S4096x128, .f32⟩
  | .hbm, ⟨119, _⟩ => ⟨S_, .f32⟩
  | .hbm, ⟨120, _⟩ => ⟨S4096x128, .f32⟩
  | .hbm, ⟨121, _⟩ => ⟨S4096x128, .f32⟩
  | .hbm, ⟨122, _⟩ => ⟨S4096x1, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_cst : Ref sig .tc := ⟨.hbm, 40, rfl⟩
abbrev main_call0_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_2 : Ref sig .tc := ⟨.hbm, 55, rfl⟩
abbrev main_v40 : Ref sig .tc := ⟨.hbm, 56, rfl⟩
abbrev main_cst_3 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_4 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_call1_cst : Ref sig .tc := ⟨.hbm, 72, rfl⟩
abbrev main_call1_v0 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_5 : Ref sig .tc := ⟨.hbm, 87, rfl⟩
abbrev main_v67 : Ref sig .tc := ⟨.hbm, 88, rfl⟩
abbrev main_cst_6 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_7 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_call2_cst : Ref sig .tc := ⟨.hbm, 104, rfl⟩
abbrev main_call2_v0 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_call3_cst : Ref sig .tc := ⟨.hbm, 112, rfl⟩
abbrev main_call3_v0 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_call4_cst : Ref sig .tc := ⟨.hbm, 119, rfl⟩
abbrev main_call4_v0 : Ref sig .tc := ⟨.hbm, 120, rfl⟩
abbrev main_v92 : Ref sig .tc := ⟨.hbm, 121, rfl⟩
abbrev main_v93 : Ref sig .tc := ⟨.hbm, 122, rfl⟩

abbrev nD : Nat := 1
abbrev τ : Topo := Topo.v7x

variable {F : FTy → Type} [FloatOps F]

class Facts₀ : Prop where
  bcast_S4096x128_S4096x128x1_0_1 : S4096x128.BroadcastsInDim S4096x128x1 (![0, 1] : Fin 2 → Fin S4096x128x1.rank)
  slices_S3x1x1_S1x1x1_0_0_0 : S3x1x1.Slices ![0, 0, 0] S1x1x1
  shapeCasts_S1x1x1_S1x1 : S1x1x1.ShapeCasts S1x1
  reducesTo_S4096x128x128_S4096x128_d2 : S4096x128x128.ReducesTo [2] S4096x128
  h_S_ : 0 < S_.numel
  bcast_S_S4096x128 : S_.BroadcastsInDim S4096x128 (![] : Fin 0 → Fin S4096x128.rank)
  bcast_S4096x128x1_S4096x128x128_0_1_2 : S4096x128x1.BroadcastsInDim S4096x128x128 (![0, 1, 2] : Fin 3 → Fin S4096x128x128.rank)
  bcast_S_S4096x128x1 : S_.BroadcastsInDim S4096x128x1 (![] : Fin 0 → Fin S4096x128x1.rank)
  slices_S3x1x1_S1x1x1_1_0_0 : S3x1x1.Slices ![1, 0, 0] S1x1x1
  slices_S3x1x1_S1x1x1_2_0_0 : S3x1x1.Slices ![2, 0, 0] S1x1x1
  shapeCasts_S4096x128x1_S4096x128 : S4096x128x1.ShapeCasts S4096x128
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  dot_S4096x128x1_S1x1_S4096x128x1_2_0_01_1_n_n_wf : DotDims.WF S4096x128x1 S1x1 S4096x128x1 [2] [0] [0, 1] [1] [] []
  dot_S4096x128x1_S4096x128x1_S4096x128x128_2_2_1_1_0_0_wf : DotDims.WF S4096x128x1 S4096x128x1 S4096x128x128 [2] [2] [1] [1] [0] [0]
  dot_S4096x128x128_S4096x128x1_S4096x128x1_2_1_1_2_0_0_wf : DotDims.WF S4096x128x128 S4096x128x1 S4096x128x1 [2] [1] [1] [2] [0] [0]
  dot_S4096x128_S128x256_S4096x256_1_0_0_1_n_n_wf : DotDims.WF S4096x128 S128x256 S4096x256 [1] [0] [0] [1] [] []
  dot_S4096x256_S256x128_S4096x128_1_0_0_1_n_n_wf : DotDims.WF S4096x256 S256x128 S4096x128 [1] [0] [0] [1] [] []
  dot_S4096x128_S128x1_S4096x1_1_0_0_1_n_n_wf : DotDims.WF S4096x128 S128x1 S4096x1 [1] [0] [0] [1] [] []

variable [Facts₀]

def dot_S4096x128x1_S1x1_S4096x128x1_2_0_01_1_n_n : DotDims S4096x128x1 S1x1 S4096x128x1 where
  lhsContracting := [2]
  rhsContracting := [0]
  lhsNonContracting := [0, 1]
  rhsNonContracting := [1]
  lhsBatch := []
  rhsBatch := []
  wf := dot_S4096x128x1_S1x1_S4096x128x1_2_0_01_1_n_n_wf
def dot_S4096x128x1_S4096x128x1_S4096x128x128_2_2_1_1_0_0 : DotDims S4096x128x1 S4096x128x1 S4096x128x128 where
  lhsContracting := [2]
  rhsContracting := [2]
  lhsNonContracting := [1]
  rhsNonContracting := [1]
  lhsBatch := [0]
  rhsBatch := [0]
  wf := dot_S4096x128x1_S4096x128x1_S4096x128x128_2_2_1_1_0_0_wf
def dot_S4096x128x128_S4096x128x1_S4096x128x1_2_1_1_2_0_0 : DotDims S4096x128x128 S4096x128x1 S4096x128x1 where
  lhsContracting := [2]
  rhsContracting := [1]
  lhsNonContracting := [1]
  rhsNonContracting := [2]
  lhsBatch := [0]
  rhsBatch := [0]
  wf := dot_S4096x128x128_S4096x128x1_S4096x128x1_2_1_1_2_0_0_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf

class Facts : Prop extends Facts₀ where

variable [Facts]
-- ==== Proof.Spec.lean ====
/-
  The common value of the two programs, as ONE function of the argument arrays, row by row.

  A row of the input is a vector `a` of 128 fields. One interaction layer with the four scalar weights
  `wq wk wv wr` sends it to the vector whose entry `f` is

      max ( Σ_g  softmax_g (a_f·wq · a_g·wk) · (a_g·wv)  +  a_f·wr ,  0 )

  where the softmax over `g` is `exp (s_g − M) / Σ_g' exp (s_g' − M)` with `M` the maximum of the scores
  `s_g` over `g`, taken from minus infinity. Three layers (weights taken at layer index 0, 1, 2) are followed by two
  dense layers with a bias and a clamp at zero, and a last projection to one number per row.
  Everything is stated on the extended reals; sums are `Finset` sums, the maximum a `Finset.fold` of `max`.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The value a row maximum starts from: the float word of minus infinity, left unevaluated. -/
abbrev negInf : EReal := Ideal.ofBits .f32 0xFF800000#32

/-- The score of field `f` against field `g`: the product of the query `a_f·wq` and the key `a_g·wk`. -/
def score (wq wk : EReal) (a : Fin 128 → EReal) (f g : Fin 128) : EReal := (a f * wq) * (a g * wk)

/-- The largest score of field `f` over all `g`, from minus infinity. -/
def rowMax (wq wk : EReal) (a : Fin 128 → EReal) (f : Fin 128) : EReal :=
  (Finset.univ : Finset (Fin 128)).fold max negInf (fun g => score wq wk a f g)

/-- The shifted exponential of a score. -/
def expo (wq wk : EReal) (a : Fin 128 → EReal) (f g : Fin 128) : EReal :=
  Ideal.exp (score wq wk a f g - rowMax wq wk a f)

/-- The softmax's denominator for field `f`. -/
def denom (wq wk : EReal) (a : Fin 128 → EReal) (f : Fin 128) : EReal := ∑ g : Fin 128, expo wq wk a f g

/-- One interaction layer on one row. -/
def layer (wq wk wv wr : EReal) (a : Fin 128 → EReal) (f : Fin 128) : EReal :=
  max ((∑ g : Fin 128, Ideal.div (expo wq wk a f g) (denom wq wk a f) * (a g * wv)) + a f * wr) 0

/-- Layer `l`'s four weights are entry `(l, 0, 0)` of the four weight arrays. -/
def layerAt (wq wk wv wr : (⟨3, ![3, 1, 1]⟩ : Shape).Idx → EReal) (l : Fin 3) (a : Fin 128 → EReal) : Fin 128 → EReal :=
  layer (wq (ix3 l (0 : Fin 1) (0 : Fin 1))) (wk (ix3 l (0 : Fin 1) (0 : Fin 1)))
    (wv (ix3 l (0 : Fin 1) (0 : Fin 1))) (wr (ix3 l (0 : Fin 1) (0 : Fin 1))) a

/-- Row `b` of the input after the three interaction layers. -/
def att (X : (⟨2, ![4096, 128]⟩ : Shape).Idx → EReal) (wq wk wv wr : (⟨3, ![3, 1, 1]⟩ : Shape).Idx → EReal)
    (b : Fin 4096) : Fin 128 → EReal :=
  layerAt wq wk wv wr 2 (layerAt wq wk wv wr 1 (layerAt wq wk wv wr 0 (fun f => X (ix2 b f))))

/-- The first dense layer: 128 → 256, a bias, a clamp at zero. -/
def dense1 (W1 : (⟨2, ![128, 256]⟩ : Shape).Idx → EReal) (b1 : (⟨1, ![256]⟩ : Shape).Idx → EReal)
    (h : Fin 128 → EReal) (j : Fin 256) : EReal :=
  max ((∑ i : Fin 128, h i * W1 (ix2 i j)) + b1 (ix1 j)) 0

/-- The second dense layer: 256 → 128, a bias, a clamp at zero. -/
def dense2 (W2 : (⟨2, ![256, 128]⟩ : Shape).Idx → EReal) (b2 : (⟨1, ![128]⟩ : Shape).Idx → EReal)
    (h : Fin 256 → EReal) (k : Fin 128) : EReal :=
  max ((∑ j : Fin 256, h j * W2 (ix2 j k)) + b2 (ix1 k)) 0

/-- The last projection: 128 → 1, no bias. -/
def proj (Wf : (⟨2, ![128, 1]⟩ : Shape).Idx → EReal) (h : Fin 128 → EReal) : EReal :=
  ∑ k : Fin 128, h k * Wf (ix2 k (0 : Fin 1))

/-- The head on one row: the two dense layers and the projection. -/
def head (W1 : (⟨2, ![128, 256]⟩ : Shape).Idx → EReal) (b1 : (⟨1, ![256]⟩ : Shape).Idx → EReal)
    (W2 : (⟨2, ![256, 128]⟩ : Shape).Idx → EReal) (b2 : (⟨1, ![128]⟩ : Shape).Idx → EReal)
    (Wf : (⟨2, ![128, 1]⟩ : Shape).Idx → EReal) (h : Fin 128 → EReal) : EReal :=
  proj Wf (dense2 W2 b2 (dense1 W1 b1 h))

/-- The whole result: entry `(b, 0)` is the head applied to row `b` after the three layers. -/
def G (X : (⟨2, ![4096, 128]⟩ : Shape).Idx → EReal) (wq wk wv wr : (⟨3, ![3, 1, 1]⟩ : Shape).Idx → EReal)
    (W1 : (⟨2, ![128, 256]⟩ : Shape).Idx → EReal) (b1 : (⟨1, ![256]⟩ : Shape).Idx → EReal)
    (W2 : (⟨2, ![256, 128]⟩ : Shape).Idx → EReal) (b2 : (⟨1, ![128]⟩ : Shape).Idx → EReal)
    (Wf : (⟨2, ![128, 1]⟩ : Shape).Idx → EReal) : (⟨2, ![4096, 1]⟩ : Shape).Idx → EReal :=
  fun i => head W1 b1 W2 b2 Wf (att X wq wk wv wr (i 0))

/-- A maximum taken again against the value it started from changes nothing. -/
theorem max_start_fold {ι : Type*} (s : Finset ι) (b : EReal) (f : ι → EReal) :
    max b (s.fold max b f) = s.fold max b f :=
  max_eq_right ((Finset.le_fold_max b).mpr (Or.inl le_rfl))

end Cert.Spec

end
-- ==== Proof.RefFold.lean ====
/-
  The host's maximum over the last axis of a [4096, 128, 128] array, read at an index of the [4096, 128] result:
  the fold of `max`, from the value of the initial word, over the 128 entries of the row.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.RefValue

open Idealize.ShloMosaic Idealize.ShloMosaic.ValueIdx

/-- The index of the result with coordinate `k` put back on the last axis is `(j 0, j 1, k)`. -/
theorem lift_last (h : (⟨3, ![4096, 128, 128]⟩ : Shape).Reduces [2] (⟨2, ![4096, 128]⟩ : Shape))
    (j : (⟨2, ![4096, 128]⟩ : Shape).Idx) (k : Fin ((⟨3, ![4096, 128, 128]⟩ : Shape).size 2)) :
    h.lift j k = ix3 (j 0) (j 1) (⟨k.val, k.isLt⟩ : Fin 128) := by
  funext c; apply Fin.ext
  fin_cases c <;> rfl

/-- A reduce with a maximum body over the last axis, from a splat of the word `w`, is at `j` the fold of `max` from the
    value of `w` over the row `(j 0, j 1, ·)`. -/
theorem hostMax_last (x : (⟨3, ![4096, 128, 128]⟩ : Shape).Idx → EReal) (w : BitVec 32)
    (h' : (⟨3, ![4096, 128, 128]⟩ : Shape).ReducesTo [2] (⟨2, ![4096, 128]⟩ : Shape))
    (hu : 0 < (⟨0, ![]⟩ : Shape).numel) (j : (⟨2, ![4096, 128]⟩ : Shape).Idx) :
    Host.reduce (FloatOps.maximumf (F := Ideal) (φ := .f32)) x (constant (F := Ideal) (⟨0, ![]⟩ : Shape) .f32 w) h' hu j
      = (Finset.univ : Finset (Fin 128)).fold max (Ideal.ofBits .f32 w) (fun g => x (ix3 (j 0) (j 1) g)) := by
  have h : (⟨3, ![4096, 128, 128]⟩ : Shape).Reduces [2] (⟨2, ![4096, 128]⟩ : Shape) := by decide
  rw [Host.reduce_eq_fold_single (FloatOps.maximumf (F := Ideal) (φ := .f32)) x _ h' h hu]
  have hf : (x ∘ h.lift j) = fun g : Fin 128 => x (ix3 (j 0) (j 1) g) :=
    funext fun k => congrArg x (lift_last h j k)
  exact congrArg (fun f => Finset.fold max (Ideal.ofBits .f32 w) f (Finset.univ : Finset (Fin 128))) hf

end Cert.RefValue

end
-- ==== Proof.RefLayer0.lean ====
/-
  Interaction layer 0 of the reference program is the specification's layer, read entry by entry.

  The layer's input is a [4096, 128, 1] array; row `b` of it is the vector `g ↦ input (b, g, 0)`. The program forms the
  query, key, value and residual arrays (each the input times one scalar weight), the scores, their row maximum from
  minus infinity, the shifted exponentials, their row sums, the quotients, the weighted sum of the values, adds the
  residual and clamps at zero. Each stage is identified with the specification's function of the same name.
-/
import proofs.«101517_j51651276702509_2_alg».proof.Proof.RefReadP
import proofs.«101517_j51651276702509_2_alg».proof.Proof.Spec
import proofs.«101517_j51651276702509_2_alg».proof.Proof.RefFold

noncomputable section

open scoped BigOperators

namespace Cert.RefValue.L0

open Cert.ReferenceIdeal Cert.ReferenceIdeal.Gen Cert.ReferenceIdeal.ReadP Idealize.ShloMosaic Idealize.ShloMosaic.ValueIdx Cert.Spec

/-- The query weight of this layer as the program holds it, a [1, 1] array, is entry (0, 0, 0) of its weight array. -/
theorem wq_at (x1 : (⟨S3x1x1, .f32⟩ : BufTy).Contents (Elt Ideal)) (j : S1x1.Idx) :
    val_main_v2 (F := Ideal) x1 j = x1 (ix3 (0 : Fin 3) (0 : Fin 1) (0 : Fin 1)) := by
  rw [val_main_v2_apply, val_main_v1_apply]
  exact congrArg x1 (funext fun a => Fin.ext (by match a with | ⟨0, _⟩ => rfl | ⟨1, _⟩ => rfl | ⟨2, _⟩ => rfl))

/-- The key weight of this layer as the program holds it, a [1, 1] array, is entry (0, 0, 0) of its weight array. -/
theorem wk_at (x2 : (⟨S3x1x1, .f32⟩ : BufTy).Contents (Elt Ideal)) (j : S1x1.Idx) :
    val_main_v4 (F := Ideal) x2 j = x2 (ix3 (0 : Fin 3) (0 : Fin 1) (0 : Fin 1)) := by
  rw [val_main_v4_apply, val_main_v3_apply]
  exact congrArg x2 (funext fun a => Fin.ext (by match a with | ⟨0, _⟩ => rfl | ⟨1, _⟩ => rfl | ⟨2, _⟩ => rfl))

/-- The value weight of this layer as the program holds it, a [1, 1] array, is entry (0, 0, 0) of its weight array. -/
theorem wv_at (x3 : (⟨S3x1x1, .f32⟩ : BufTy).Contents (Elt Ideal)) (j : S1x1.Idx) :
    val_main_v6 (F := Ideal) x3 j = x3 (ix3 (0 : Fin 3) (0 : Fin 1) (0 : Fin 1)) := by
  rw [val_main_v6_apply, val_main_v5_apply]
  exact congrArg x3 (funext fun a => Fin.ext (by match a with | ⟨0, _⟩ => rfl | ⟨1, _⟩ => rfl | ⟨2, _⟩ => rfl))

/-- The residual weight of this layer as the program holds it, a [1, 1] array, is entry (0, 0, 0) of its weight array. -/
theorem wr_at (x4 : (⟨S3x1x1, .f32⟩ : BufTy).Contents (Elt Ideal)) (j : S1x1.Idx) :
    val_main_v8 (F := Ideal) x4 j = x4 (ix3 (0 : Fin 3) (0 : Fin 1) (0 : Fin 1)) := by
  rw [val_main_v8_apply, val_main_v7_apply]
  exact congrArg x4 (funext fun a => Fin.ext (by match a with | ⟨0, _⟩ => rfl | ⟨1, _⟩ => rfl | ⟨2, _⟩ => rfl))

/-- The query array: each entry of the layer's input times the query weight (the contraction is over an axis of one entry). -/
theorem q_at (x0 : (⟨S4096x128, .f32⟩ : BufTy).Contents (Elt Ideal)) (x1 : (⟨S3x1x1, .f32⟩ : BufTy).Contents (Elt Ideal)) (i : S4096x128x1.Idx) :
    val_main_v9 (F := Ideal) x0 x1 i = (val_main_v0 (F := Ideal) x0) (ix3 (i 0) (i 1) (0 : Fin 1)) * x1 (ix3 (0 : Fin 3) (0 : Fin 1) (0 : Fin 1)) := by
  rw [val_main_v9_apply, Fin.sum_univ_one, wq_at]
  exact congrArg (· * x1 (ix3 (0 : Fin 3) (0 : Fin 1) (0 : Fin 1))) (congrArg (val_main_v0 (F := Ideal) x0) (funext fun a => Fin.ext (by match a with | ⟨0, _⟩ => rfl | ⟨1, _⟩ => rfl | ⟨2, _⟩ => rfl)))

/-- The key array: each entry of the layer's input times the key weight (the contraction is over an axis of one entry). -/
theorem k_at (x0 : (⟨S4096x128, .f32⟩ : BufTy).Contents (Elt Ideal)) (x2 : (⟨S3x1x1, .f32⟩ : BufTy).Contents (Elt Ideal)) (i : S4096x128x1.Idx) :
    val_main_v10 (F := Ideal) x0 x2 i = (val_main_v0 (F := Ideal) x0) (ix3 (i 0) (i 1) (0 : Fin 1)) * x2 (ix3 (0 : Fin 3) (0 : Fin 1) (0 : Fin 1)) := by
  rw [val_main_v10_apply, Fin.sum_univ_one, wk_at]
  exact congrArg (· * x2 (ix3 (0 : Fin 3) (0 : Fin 1) (0 : Fin 1))) (congrArg (val_main_v0 (F := Ideal) x0) (funext fun a => Fin.ext (by match a with | ⟨0, _⟩ => rfl | ⟨1, _⟩ => rfl | ⟨2, _⟩ => rfl)))

/-- The value array: each entry of the layer's input times the value weight (the contraction is over an axis of one entry). -/
theorem v_at (x0 : (⟨S4096x128, .f32⟩ : BufTy).Contents (Elt Ideal)) (x3 : (⟨S3x1x1, .f32⟩ : BufTy).Contents (Elt Ideal)) (i : S4096x128x1.Idx) :
    val_main_v11 (F := Ideal) x0 x3 i = (val_main_v0 (F := Ideal) x0) (ix3 (i 0) (i 1) (0 : Fin 1)) * x3 (ix3 (0 : Fin 3) (0 : Fin 1) (0 : Fin 1)) := by
  rw [val_main_v11_apply, Fin.sum_univ_one, wv_at]
  exact congrArg (· * x3 (ix3 (0 : Fin 3) (0 : Fin 1) (0 : Fin 1))) (congrArg (val_main_v0 (F := Ideal) x0) (funext fun a => Fin.ext (by match a with | ⟨0, _⟩ => rfl | ⟨1, _⟩ => rfl | ⟨2, _⟩ => rfl)))

/-- The residual array: each entry of the layer's input times the residual weight (the contraction is over an axis of one entry). -/
theorem r_at (x0 : (⟨S4096x128, .f32⟩ : BufTy).Contents (Elt Ideal)) (x4 : (⟨S3x1x1, .f32⟩ : BufTy).Contents (Elt Ideal)) (i : S4096x128x1.Idx) :
    val_main_v25 (F := Ideal) x0 x4 i = (val_main_v0 (F := Ideal) x0) (ix3 (i 0) (i 1) (0 : Fin 1)) * x4 (ix3 (0 : Fin 3) (0 : Fin 1) (0 : Fin 1)) := by
  rw [val_main_v25_apply, Fin.sum_univ_one, wr_at]
  exact congrArg (· * x4 (ix3 (0 : Fin 3) (0 : Fin 1) (0 : Fin 1))) (congrArg (val_main_v0 (F := Ideal) x0) (funext fun a => Fin.ext (by match a with | ⟨0, _⟩ => rfl | ⟨1, _⟩ => rfl | ⟨2, _⟩ => rfl)))

/-- The score of field `i 1` against field `i 2` in row `i 0`: query times key. -/
theorem s_at (x0 : (⟨S4096x128, .f32⟩ : BufTy).Contents (Elt Ideal)) (x1 x2 : (⟨S3x1x1, .f32⟩ : BufTy).Contents (Elt Ideal)) (i : S4096x128x128.Idx) :
    val_main_v12 (F := Ideal) x0 x1 x2 i = score (x1 (ix3 (0 : Fin 3) (0 : Fin 1) (0 : Fin 1))) (x2 (ix3 (0 : Fin 3) (0 : Fin 1) (0 : Fin 1))) (fun g : Fin 128 => (val_main_v0 (F := Ideal) x0) (ix3 (i 0) g (0 : Fin 1))) (i 1) (i 2) := by
  rw [val_main_v12_apply, Fin.sum_univ_one, q_at, k_at]
  rfl

/-- The row maximum: the fold of `max` over the row's scores from minus infinity; taking the maximum with minus infinity
    once more changes nothing. -/
theorem m_at (x0 : (⟨S4096x128, .f32⟩ : BufTy).Contents (Elt Ideal)) (x1 x2 : (⟨S3x1x1, .f32⟩ : BufTy).Contents (Elt Ideal)) (j : S4096x128.Idx) :
    val_main_v15 (F := Ideal) x0 x1 x2 j = rowMax (x1 (ix3 (0 : Fin 3) (0 : Fin 1) (0 : Fin 1))) (x2 (ix3 (0 : Fin 3) (0 : Fin 1) (0 : Fin 1))) (fun g : Fin 128 => (val_main_v0 (F := Ideal) x0) (ix3 (j 0) g (0 : Fin 1))) (j 1) := by
  have hm : val_main_v13 (F := Ideal) x0 x1 x2 j = rowMax (x1 (ix3 (0 : Fin 3) (0 : Fin 1) (0 : Fin 1))) (x2 (ix3 (0 : Fin 3) (0 : Fin 1) (0 : Fin 1))) (fun g : Fin 128 => (val_main_v0 (F := Ideal) x0) (ix3 (j 0) g (0 : Fin 1))) (j 1) :=
    (hostMax_last (val_main_v12 (F := Ideal) x0 x1 x2) 0xFF800000#32 reducesTo_S4096x128x128_S4096x128_d2 h_S_ j).trans
      (congrArg (fun φ => Finset.fold max negInf φ (Finset.univ : Finset (Fin 128)))
        (funext fun g => s_at x0 x1 x2 (ix3 (j 0) (j 1) g)))
  rw [val_main_v15_apply, val_main_v14_apply, val_main_cst_0_apply, hm]
  exact max_start_fold _ _ _

/-- The shifted exponential of a score. -/
theorem e_at (x0 : (⟨S4096x128, .f32⟩ : BufTy).Contents (Elt Ideal)) (x1 x2 : (⟨S3x1x1, .f32⟩ : BufTy).Contents (Elt Ideal)) (i : S4096x128x128.Idx) :
    val_main_v19 (F := Ideal) x0 x1 x2 i = expo (x1 (ix3 (0 : Fin 3) (0 : Fin 1) (0 : Fin 1))) (x2 (ix3 (0 : Fin 3) (0 : Fin 1) (0 : Fin 1))) (fun g : Fin 128 => (val_main_v0 (F := Ideal) x0) (ix3 (i 0) g (0 : Fin 1))) (i 1) (i 2) := by
  rw [val_main_v19_apply, val_main_v18_apply, val_main_v17_apply, val_main_v16_apply, m_at, s_at]
  rfl

/-- The softmax's denominator: the sum of the row's shifted exponentials, from zero. -/
theorem d_at (x0 : (⟨S4096x128, .f32⟩ : BufTy).Contents (Elt Ideal)) (x1 x2 : (⟨S3x1x1, .f32⟩ : BufTy).Contents (Elt Ideal)) (j : S4096x128.Idx) :
    val_main_v20 (F := Ideal) x0 x1 x2 j = denom (x1 (ix3 (0 : Fin 3) (0 : Fin 1) (0 : Fin 1))) (x2 (ix3 (0 : Fin 3) (0 : Fin 1) (0 : Fin 1))) (fun g : Fin 128 => (val_main_v0 (F := Ideal) x0) (ix3 (j 0) g (0 : Fin 1))) (j 1) := by
  rw [val_main_v20_apply, val_main_cst_1_apply, Ideal.ofBits_def, Ideal.ofBits_zero_f32, zero_add]
  exact Finset.sum_congr rfl fun g _ => e_at x0 x1 x2 (idx_main_v20 j g)

/-- The softmax: the shifted exponential over the denominator. -/
theorem p_at (x0 : (⟨S4096x128, .f32⟩ : BufTy).Contents (Elt Ideal)) (x1 x2 : (⟨S3x1x1, .f32⟩ : BufTy).Contents (Elt Ideal)) (i : S4096x128x128.Idx) :
    val_main_v23 (F := Ideal) x0 x1 x2 i = Ideal.div (expo (x1 (ix3 (0 : Fin 3) (0 : Fin 1) (0 : Fin 1))) (x2 (ix3 (0 : Fin 3) (0 : Fin 1) (0 : Fin 1))) (fun g : Fin 128 => (val_main_v0 (F := Ideal) x0) (ix3 (i 0) g (0 : Fin 1))) (i 1) (i 2)) (denom (x1 (ix3 (0 : Fin 3) (0 : Fin 1) (0 : Fin 1))) (x2 (ix3 (0 : Fin 3) (0 : Fin 1) (0 : Fin 1))) (fun g : Fin 128 => (val_main_v0 (F := Ideal) x0) (ix3 (i 0) g (0 : Fin 1))) (i 1)) := by
  rw [val_main_v23_apply, val_main_v22_apply, val_main_v21_apply, d_at, e_at]
  rfl

/-- The attention output: the softmax-weighted sum of the values over the row. -/
theorem av_at (x0 : (⟨S4096x128, .f32⟩ : BufTy).Contents (Elt Ideal)) (x1 x2 x3 : (⟨S3x1x1, .f32⟩ : BufTy).Contents (Elt Ideal)) (i : S4096x128x1.Idx) :
    val_main_v24 (F := Ideal) x0 x1 x2 x3 i = ∑ g : Fin 128, Ideal.div (expo (x1 (ix3 (0 : Fin 3) (0 : Fin 1) (0 : Fin 1))) (x2 (ix3 (0 : Fin 3) (0 : Fin 1) (0 : Fin 1))) (fun g : Fin 128 => (val_main_v0 (F := Ideal) x0) (ix3 (i 0) g (0 : Fin 1))) (i 1) g) (denom (x1 (ix3 (0 : Fin 3) (0 : Fin 1) (0 : Fin 1))) (x2 (ix3 (0 : Fin 3) (0 : Fin 1) (0 : Fin 1))) (fun g : Fin 128 => (val_main_v0 (F := Ideal) x0) (ix3 (i 0) g (0 : Fin 1))) (i 1))
        * ((val_main_v0 (F := Ideal) x0) (ix3 (i 0) g (0 : Fin 1)) * x3 (ix3 (0 : Fin 3) (0 : Fin 1) (0 : Fin 1))) := by
  rw [val_main_v24_apply]
  refine Finset.sum_congr rfl fun g _ => ?_
  rw [p_at, v_at]
  rfl

/-- The layer's result at `i` is the specification's layer 0 on row `i 0` of the layer's input, at field `i 1`. -/
theorem out_at (x0 : (⟨S4096x128, .f32⟩ : BufTy).Contents (Elt Ideal)) (x1 x2 x3 x4 : (⟨S3x1x1, .f32⟩ : BufTy).Contents (Elt Ideal)) (i : S4096x128x1.Idx) :
    val_main_v27 (F := Ideal) x0 x1 x2 x3 x4 i = layerAt x1 x2 x3 x4 (0 : Fin 3) (fun g : Fin 128 => (val_main_v0 (F := Ideal) x0) (ix3 (i 0) g (0 : Fin 1))) (i 1) := by
  rw [val_main_v27_apply, val_main_v26_apply, av_at, r_at, val_main_call0_v0_apply, val_main_call0_cst_apply, Ideal.ofBits_def, Ideal.ofBits_zero_f32]
  rfl

end Cert.RefValue.L0

end
-- ==== Proof.RefLayer1.lean ====
/-
  Interaction layer 1 of the reference program is the specification's layer, read entry by entry.

  The layer's input is a [4096, 128, 1] array; row `b` of it is the vector `g ↦ input (b, g, 0)`. The program forms the
  query, key, value and residual arrays (each the input times one scalar weight), the scores, their row maximum from
  minus infinity, the shifted exponentials, their row sums, the quotients, the weighted sum of the values, adds the
  residual and clamps at zero. Each stage is identified with the specification's function of the same name.
-/
import proofs.«101517_j51651276702509_2_alg».proof.Proof.RefReadP
import proofs.«101517_j51651276702509_2_alg».proof.Proof.Spec
import proofs.«101517_j51651276702509_2_alg».proof.Proof.RefFold

noncomputable section

open scoped BigOperators

namespace Cert.RefValue.L1

open Cert.ReferenceIdeal Cert.ReferenceIdeal.Gen Cert.ReferenceIdeal.ReadP Idealize.ShloMosaic Idealize.ShloMosaic.ValueIdx Cert.Spec

/-- The query weight of this layer as the program holds it, a [1, 1] array, is entry (1, 0, 0) of its weight array. -/
theorem wq_at (x1 : (⟨S3x1x1, .f32⟩ : BufTy).Contents (Elt Ideal)) (j : S1x1.Idx) :
    val_main_v29 (F := Ideal) x1 j = x1 (ix3 (1 : Fin 3) (0 : Fin 1) (0 : Fin 1)) := by
  rw [val_main_v29_apply, val_main_v28_apply]
  exact congrArg x1 (funext fun a => Fin.ext (by match a with | ⟨0, _⟩ => rfl | ⟨1, _⟩ => rfl | ⟨2, _⟩ => rfl))

/-- The key weight of this layer as the program holds it, a [1, 1] array, is entry (1, 0, 0) of its weight array. -/
theorem wk_at (x2 : (⟨S3x1x1, .f32⟩ : BufTy).Contents (Elt Ideal)) (j : S1x1.Idx) :
    val_main_v31 (F := Ideal) x2 j = x2 (ix3 (1 : Fin 3) (0 : Fin 1) (0 : Fin 1)) := by
  rw [val_main_v31_apply, val_main_v30_apply]
  exact congrArg x2 (funext fun a => Fin.ext (by match a with | ⟨0, _⟩ => rfl | ⟨1, _⟩ => rfl | ⟨2, _⟩ => rfl))

/-- The value weight of this layer as the program holds it, a [1, 1] array, is entry (1, 0, 0) of its weight array. -/
theorem wv_at (x3 : (⟨S3x1x1, .f32⟩ : BufTy).Contents (Elt Ideal)) (j : S1x1.Idx) :
    val_main_v33 (F := Ideal) x3 j = x3 (ix3 (1 : Fin 3) (0 : Fin 1) (0 : Fin 1)) := by
  rw [val_main_v33_apply, val_main_v32_apply]
  exact congrArg x3 (funext fun a => Fin.ext (by match a with | ⟨0, _⟩ => rfl | ⟨1, _⟩ => rfl | ⟨2, _⟩ => rfl))

/-- The residual weight of this layer as the program holds it, a [1, 1] array, is entry (1, 0, 0) of its weight array. -/
theorem wr_at (x4 : (⟨S3x1x1, .f32⟩ : BufTy).Contents (Elt Ideal)) (j : S1x1.Idx) :
    val_main_v35 (F := Ideal) x4 j = x4 (ix3 (1 : Fin 3) (0 : Fin 1) (0 : Fin 1)) := by
  rw [val_main_v35_apply, val_main_v34_apply]
  exact congrArg x4 (funext fun a => Fin.ext (by match a with | ⟨0, _⟩ => rfl | ⟨1, _⟩ => rfl | ⟨2, _⟩ => rfl))

/-- The query array: each entry of the layer's input times the query weight (the contraction is over an axis of one entry). -/
theorem q_at (x0 : (⟨S4096x128, .f32⟩ : BufTy).Contents (Elt Ideal)) (x1 x2 x3 x4 : (⟨S3x1x1, .f32⟩ : BufTy).Contents (Elt Ideal)) (i : S4096x128x1.Idx) :
    val_main_v36 (F := Ideal) x0 x1 x2 x3 x4 i = (val_main_v27 (F := Ideal) x0 x1 x2 x3 x4) (ix3 (i 0) (i 1) (0 : Fin 1)) * x1 (ix3 (1 : Fin 3) (0 : Fin 1) (0 : Fin 1)) := by
  rw [val_main_v36_apply, Fin.sum_univ_one, wq_at]
  exact congrArg (· * x1 (ix3 (1 : Fin 3) (0 : Fin 1) (0 : Fin 1))) (congrArg (val_main_v27 (F := Ideal) x0 x1 x2 x3 x4) (funext fun a => Fin.ext (by match a with | ⟨0, _⟩ => rfl | ⟨1, _⟩ => rfl | ⟨2, _⟩ => rfl)))

/-- The key array: each entry of the layer's input times the key weight (the contraction is over an axis of one entry). -/
theorem k_at (x0 : (⟨S4096x128, .f32⟩ : BufTy).Contents (Elt Ideal)) (x1 x2 x3 x4 : (⟨S3x1x1, .f32⟩ : BufTy).Contents (Elt Ideal)) (i : S4096x128x1.Idx) :
    val_main_v37 (F := Ideal) x0 x1 x2 x3 x4 i = (val_main_v27 (F := Ideal) x0 x1 x2 x3 x4) (ix3 (i 0) (i 1) (0 : Fin 1)) * x2 (ix3 (1 : Fin 3) (0 : Fin 1) (0 : Fin 1)) := by
  rw [val_main_v37_apply, Fin.sum_univ_one, wk_at]
  exact congrArg (· * x2 (ix3 (1 : Fin 3) (0 : Fin 1) (0 : Fin 1))) (congrArg (val_main_v27 (F := Ideal) x0 x1 x2 x3 x4) (funext fun a => Fin.ext (by match a with | ⟨0, _⟩ => rfl | ⟨1, _⟩ => rfl | ⟨2, _⟩ => rfl)))

/-- The value array: each entry of the layer's input times the value weight (the contraction is over an axis of one entry). -/
theorem v_at (x0 : (⟨S4096x128, .f32⟩ : BufTy).Contents (Elt Ideal)) (x1 x2 x3 x4 : (⟨S3x1x1, .f32⟩ : BufTy).Contents (Elt Ideal)) (i : S4096x128x1.Idx) :
    val_main_v38 (F := Ideal) x0 x1 x2 x3 x4 i = (val_main_v27 (F := Ideal) x0 x1 x2 x3 x4) (ix3 (i 0) (i 1) (0 : Fin 1)) * x3 (ix3 (1 : Fin 3) (0 : Fin 1) (0 : Fin 1)) := by
  rw [val_main_v38_apply, Fin.sum_univ_one, wv_at]
  exact congrArg (· * x3 (ix3 (1 : Fin 3) (0 : Fin 1) (0 : Fin 1))) (congrArg (val_main_v27 (F := Ideal) x0 x1 x2 x3 x4) (funext fun a => Fin.ext (by match a with | ⟨0, _⟩ => rfl | ⟨1, _⟩ => rfl | ⟨2, _⟩ => rfl)))

/-- The residual array: each entry of the layer's input times the residual weight (the contraction is over an axis of one entry). -/
theorem r_at (x0 : (⟨S4096x128, .f32⟩ : BufTy).Contents (Elt Ideal)) (x1 x2 x3 x4 : (⟨S3x1x1, .f32⟩ : BufTy).Contents (Elt Ideal)) (i : S4096x128x1.Idx) :
    val_main_v52 (F := Ideal) x0 x1 x2 x3 x4 i = (val_main_v27 (F := Ideal) x0 x1 x2 x3 x4) (ix3 (i 0) (i 1) (0 : Fin 1)) * x4 (ix3 (1 : Fin 3) (0 : Fin 1) (0 : Fin 1)) := by
  rw [val_main_v52_apply, Fin.sum_univ_one, wr_at]
  exact congrArg (· * x4 (ix3 (1 : Fin 3) (0 : Fin 1) (0 : Fin 1))) (congrArg (val_main_v27 (F := Ideal) x0 x1 x2 x3 x4) (funext fun a => Fin.ext (by match a with | ⟨0, _⟩ => rfl | ⟨1, _⟩ => rfl | ⟨2, _⟩ => rfl)))

/-- The score of field `i 1` against field `i 2` in row `i 0`: query times key. -/
theorem s_at (x0 : (⟨S4096x128, .f32⟩ : BufTy).Contents (Elt Ideal)) (x1 x2 x3 x4 : (⟨S3x1x1, .f32⟩ : BufTy).Contents (Elt Ideal)) (i : S4096x128x128.Idx) :
    val_main_v39 (F := Ideal) x0 x1 x2 x3 x4 i = score (x1 (ix3 (1 : Fin 3) (0 : Fin 1) (0 : Fin 1))) (x2 (ix3 (1 : Fin 3) (0 : Fin 1) (0 : Fin 1))) (fun g : Fin 128 => (val_main_v27 (F := Ideal) x0 x1 x2 x3 x4) (ix3 (i 0) g (0 : Fin 1))) (i 1) (i 2) := by
  rw [val_main_v39_apply, Fin.sum_univ_one, q_at, k_at]
  rfl

/-- The row maximum: the fold of `max` over the row's scores from minus infinity; taking the maximum with minus infinity
    once more changes nothing. -/
theorem m_at (x0 : (⟨S4096x128, .f32⟩ : BufTy).Contents (Elt Ideal)) (x1 x2 x3 x4 : (⟨S3x1x1, .f32⟩ : BufTy).Contents (Elt Ideal)) (j : S4096x128.Idx) :
    val_main_v42 (F := Ideal) x0 x1 x2 x3 x4 j = rowMax (x1 (ix3 (1 : Fin 3) (0 : Fin 1) (0 : Fin 1))) (x2 (ix3 (1 : Fin 3) (0 : Fin 1) (0 : Fin 1))) (fun g : Fin 128 => (val_main_v27 (F := Ideal) x0 x1 x2 x3 x4) (ix3 (j 0) g (0 : Fin 1))) (j 1) := by
  have hm : val_main_v40 (F := Ideal) x0 x1 x2 x3 x4 j = rowMax (x1 (ix3 (1 : Fin 3) (0 : Fin 1) (0 : Fin 1))) (x2 (ix3 (1 : Fin 3) (0 : Fin 1) (0 : Fin 1))) (fun g : Fin 128 => (val_main_v27 (F := Ideal) x0 x1 x2 x3 x4) (ix3 (j 0) g (0 : Fin 1))) (j 1) :=
    (hostMax_last (val_main_v39 (F := Ideal) x0 x1 x2 x3 x4) 0xFF800000#32 reducesTo_S4096x128x128_S4096x128_d2 h_S_ j).trans
      (congrArg (fun φ => Finset.fold max negInf φ (Finset.univ : Finset (Fin 128)))
        (funext fun g => s_at x0 x1 x2 x3 x4 (ix3 (j 0) (j 1) g)))
  rw [val_main_v42_apply, val_main_v41_apply, val_main_cst_3_apply, hm]
  exact max_start_fold _ _ _

/-- The shifted exponential of a score. -/
theorem e_at (x0 : (⟨S4096x128, .f32⟩ : BufTy).Contents (Elt Ideal)) (x1 x2 x3 x4 : (⟨S3x1x1, .f32⟩ : BufTy).Contents (Elt Ideal)) (i : S4096x128x128.Idx) :
    val_main_v46 (F := Ideal) x0 x1 x2 x3 x4 i = expo (x1 (ix3 (1 : Fin 3) (0 : Fin 1) (0 : Fin 1))) (x2 (ix3 (1 : Fin 3) (0 : Fin 1) (0 : Fin 1))) (fun g : Fin 128 => (val_main_v27 (F := Ideal) x0 x1 x2 x3 x4) (ix3 (i 0) g (0 : Fin 1))) (i 1) (i 2) := by
  rw [val_main_v46_apply, val_main_v45_apply, val_main_v44_apply, val_main_v43_apply, m_at, s_at]
  rfl

/-- The softmax's denominator: the sum of the row's shifted exponentials, from zero. -/
theorem d_at (x0 : (⟨S4096x128, .f32⟩ : BufTy).Contents (Elt Ideal)) (x1 x2 x3 x4 : (⟨S3x1x1, .f32⟩ : BufTy).Contents (Elt Ideal)) (j : S4096x128.Idx) :
    val_main_v47 (F := Ideal) x0 x1 x2 x3 x4 j = denom (x1 (ix3 (1 : Fin 3) (0 : Fin 1) (0 : Fin 1))) (x2 (ix3 (1 : Fin 3) (0 : Fin 1) (0 : Fin 1))) (fun g : Fin 128 => (val_main_v27 (F := Ideal) x0 x1 x2 x3 x4) (ix3 (j 0) g (0 : Fin 1))) (j 1) := by
  rw [val_main_v47_apply, val_main_cst_4_apply, Ideal.ofBits_def, Ideal.ofBits_zero_f32, zero_add]
  exact Finset.sum_congr rfl fun g _ => e_at x0 x1 x2 x3 x4 (idx_main_v47 j g)

/-- The softmax: the shifted exponential over the denominator. -/
theorem p_at (x0 : (⟨S4096x128, .f32⟩ : BufTy).Contents (Elt Ideal)) (x1 x2 x3 x4 : (⟨S3x1x1, .f32⟩ : BufTy).Contents (Elt Ideal)) (i : S4096x128x128.Idx) :
    val_main_v50 (F := Ideal) x0 x1 x2 x3 x4 i = Ideal.div (expo (x1 (ix3 (1 : Fin 3) (0 : Fin 1) (0 : Fin 1))) (x2 (ix3 (1 : Fin 3) (0 : Fin 1) (0 : Fin 1))) (fun g : Fin 128 => (val_main_v27 (F := Ideal) x0 x1 x2 x3 x4) (ix3 (i 0) g (0 : Fin 1))) (i 1) (i 2)) (denom (x1 (ix3 (1 : Fin 3) (0 : Fin 1) (0 : Fin 1))) (x2 (ix3 (1 : Fin 3) (0 : Fin 1) (0 : Fin 1))) (fun g : Fin 128 => (val_main_v27 (F := Ideal) x0 x1 x2 x3 x4) (ix3 (i 0) g (0 : Fin 1))) (i 1)) := by
  rw [val_main_v50_apply, val_main_v49_apply, val_main_v48_apply, d_at, e_at]
  rfl

/-- The attention output: the softmax-weighted sum of the values over the row. -/
theorem av_at (x0 : (⟨S4096x128, .f32⟩ : BufTy).Contents (Elt Ideal)) (x1 x2 x3 x4 : (⟨S3x1x1, .f32⟩ : BufTy).Contents (Elt Ideal)) (i : S4096x128x1.Idx) :
    val_main_v51 (F := Ideal) x0 x1 x2 x3 x4 i = ∑ g : Fin 128, Ideal.div (expo (x1 (ix3 (1 : Fin 3) (0 : Fin 1) (0 : Fin 1))) (x2 (ix3 (1 : Fin 3) (0 : Fin 1) (0 : Fin 1))) (fun g : Fin 128 => (val_main_v27 (F := Ideal) x0 x1 x2 x3 x4) (ix3 (i 0) g (0 : Fin 1))) (i 1) g) (denom (x1 (ix3 (1 : Fin 3) (0 : Fin 1) (0 : Fin 1))) (x2 (ix3 (1 : Fin 3) (0 : Fin 1) (0 : Fin 1))) (fun g : Fin 128 => (val_main_v27 (F := Ideal) x0 x1 x2 x3 x4) (ix3 (i 0) g (0 : Fin 1))) (i 1))
        * ((val_main_v27 (F := Ideal) x0 x1 x2 x3 x4) (ix3 (i 0) g (0 : Fin 1)) * x3 (ix3 (1 : Fin 3) (0 : Fin 1) (0 : Fin 1))) := by
  rw [val_main_v51_apply]
  refine Finset.sum_congr rfl fun g _ => ?_
  rw [p_at, v_at]
  rfl

/-- The layer's result at `i` is the specification's layer 1 on row `i 0` of the layer's input, at field `i 1`. -/
theorem out_at (x0 : (⟨S4096x128, .f32⟩ : BufTy).Contents (Elt Ideal)) (x1 x2 x3 x4 : (⟨S3x1x1, .f32⟩ : BufTy).Contents (Elt Ideal)) (i : S4096x128x1.Idx) :
    val_main_v54 (F := Ideal) x0 x1 x2 x3 x4 i = layerAt x1 x2 x3 x4 (1 : Fin 3) (fun g : Fin 128 => (val_main_v27 (F := Ideal) x0 x1 x2 x3 x4) (ix3 (i 0) g (0 : Fin 1))) (i 1) := by
  rw [val_main_v54_apply, val_main_v53_apply, av_at, r_at, val_main_call1_v0_apply, val_main_call1_cst_apply, Ideal.ofBits_def, Ideal.ofBits_zero_f32]
  rfl

end Cert.RefValue.L1

end
-- ==== Proof.RefLayer2.lean ====
/-
  Interaction layer 2 of the reference program is the specification's layer, read entry by entry.

  The layer's input is a [4096, 128, 1] array; row `b` of it is the vector `g ↦ input (b, g, 0)`. The program forms the
  query, key, value and residual arrays (each the input times one scalar weight), the scores, their row maximum from
  minus infinity, the shifted exponentials, their row sums, the quotients, the weighted sum of the values, adds the
  residual and clamps at zero. Each stage is identified with the specification's function of the same name.
-/
import proofs.«101517_j51651276702509_2_alg».proof.Proof.RefReadP
import proofs.«101517_j51651276702509_2_alg».proof.Proof.Spec
import proofs.«101517_j51651276702509_2_alg».proof.Proof.RefFold

noncomputable section

open scoped BigOperators

namespace Cert.RefValue.L2

open Cert.ReferenceIdeal Cert.ReferenceIdeal.Gen Cert.ReferenceIdeal.ReadP Idealize.ShloMosaic Idealize.ShloMosaic.ValueIdx Cert.Spec

/-- The query weight of this layer as the program holds it, a [1, 1] array, is entry (2, 0, 0) of its weight array. -/
theorem wq_at (x1 : (⟨S3x1x1, .f32⟩ : BufTy).Contents (Elt Ideal)) (j : S1x1.Idx) :
    val_main_v56 (F := Ideal) x1 j = x1 (ix3 (2 : Fin 3) (0 : Fin 1) (0 : Fin 1)) := by
  rw [val_main_v56_apply, val_main_v55_apply]
  exact congrArg x1 (funext fun a => Fin.ext (by match a with | ⟨0, _⟩ => rfl | ⟨1, _⟩ => rfl | ⟨2, _⟩ => rfl))

/-- The key weight of this layer as the program holds it, a [1, 1] array, is entry (2, 0, 0) of its weight array. -/
theorem wk_at (x2 : (⟨S3x1x1, .f32⟩ : BufTy).Contents (Elt Ideal)) (j : S1x1.Idx) :
    val_main_v58 (F := Ideal) x2 j = x2 (ix3 (2 : Fin 3) (0 : Fin 1) (0 : Fin 1)) := by
  rw [val_main_v58_apply, val_main_v57_apply]
  exact congrArg x2 (funext fun a => Fin.ext (by match a with | ⟨0, _⟩ => rfl | ⟨1, _⟩ => rfl | ⟨2, _⟩ => rfl))

/-- The value weight of this layer as the program holds it, a [1, 1] array, is entry (2, 0, 0) of its weight array. -/
theorem wv_at (x3 : (⟨S3x1x1, .f32⟩ : BufTy).Contents (Elt Ideal)) (j : S1x1.Idx) :
    val_main_v60 (F := Ideal) x3 j = x3 (ix3 (2 : Fin 3) (0 : Fin 1) (0 : Fin 1)) := by
  rw [val_main_v60_apply, val_main_v59_apply]
  exact congrArg x3 (funext fun a => Fin.ext (by match a with | ⟨0, _⟩ => rfl | ⟨1, _⟩ => rfl | ⟨2, _⟩ => rfl))

/-- The residual weight of this layer as the program holds it, a [1, 1] array, is entry (2, 0, 0) of its weight array. -/
theorem wr_at (x4 : (⟨S3x1x1, .f32⟩ : BufTy).Contents (Elt Ideal)) (j : S1x1.Idx) :
    val_main_v62 (F := Ideal) x4 j = x4 (ix3 (2 : Fin 3) (0 : Fin 1) (0 : Fin 1)) := by
  rw [val_main_v62_apply, val_main_v61_apply]
  exact congrArg x4 (funext fun a => Fin.ext (by match a with | ⟨0, _⟩ => rfl | ⟨1, _⟩ => rfl | ⟨2, _⟩ => rfl))

/-- The query array: each entry of the layer's input times the query weight (the contraction is over an axis of one entry). -/
theorem q_at (x0 : (⟨S4096x128, .f32⟩ : BufTy).Contents (Elt Ideal)) (x1 x2 x3 x4 : (⟨S3x1x1, .f32⟩ : BufTy).Contents (Elt Ideal)) (i : S4096x128x1.Idx) :
    val_main_v63 (F := Ideal) x0 x1 x2 x3 x4 i = (val_main_v54 (F := Ideal) x0 x1 x2 x3 x4) (ix3 (i 0) (i 1) (0 : Fin 1)) * x1 (ix3 (2 : Fin 3) (0 : Fin 1) (0 : Fin 1)) := by
  rw [val_main_v63_apply, Fin.sum_univ_one, wq_at]
  exact congrArg (· * x1 (ix3 (2 : Fin 3) (0 : Fin 1) (0 : Fin 1))) (congrArg (val_main_v54 (F := Ideal) x0 x1 x2 x3 x4) (funext fun a => Fin.ext (by match a with | ⟨0, _⟩ => rfl | ⟨1, _⟩ => rfl | ⟨2, _⟩ => rfl)))

/-- The key array: each entry of the layer's input times the key weight (the contraction is over an axis of one entry). -/
theorem k_at (x0 : (⟨S4096x128, .f32⟩ : BufTy).Contents (Elt Ideal)) (x1 x2 x3 x4 : (⟨S3x1x1, .f32⟩ : BufTy).Contents (Elt Ideal)) (i : S4096x128x1.Idx) :
    val_main_v64 (F := Ideal) x0 x1 x2 x3 x4 i = (val_main_v54 (F := Ideal) x0 x1 x2 x3 x4) (ix3 (i 0) (i 1) (0 : Fin 1)) * x2 (ix3 (2 : Fin 3) (0 : Fin 1) (0 : Fin 1)) := by
  rw [val_main_v64_apply, Fin.sum_univ_one, wk_at]
  exact congrArg (· * x2 (ix3 (2 : Fin 3) (0 : Fin 1) (0 : Fin 1))) (congrArg (val_main_v54 (F := Ideal) x0 x1 x2 x3 x4) (funext fun a => Fin.ext (by match a with | ⟨0, _⟩ => rfl | ⟨1, _⟩ => rfl | ⟨2, _⟩ => rfl)))

/-- The value array: each entry of the layer's input times the value weight (the contraction is over an axis of one entry). -/
theorem v_at (x0 : (⟨S4096x128, .f32⟩ : BufTy).Contents (Elt Ideal)) (x1 x2 x3 x4 : (⟨S3x1x1, .f32⟩ : BufTy).Contents (Elt Ideal)) (i : S4096x128x1.Idx) :
    val_main_v65 (F := Ideal) x0 x1 x2 x3 x4 i = (val_main_v54 (F := Ideal) x0 x1 x2 x3 x4) (ix3 (i 0) (i 1) (0 : Fin 1)) * x3 (ix3 (2 : Fin 3) (0 : Fin 1) (0 : Fin 1)) := by
  rw [val_main_v65_apply, Fin.sum_univ_one, wv_at]
  exact congrArg (· * x3 (ix3 (2 : Fin 3) (0 : Fin 1) (0 : Fin 1))) (congrArg (val_main_v54 (F := Ideal) x0 x1 x2 x3 x4) (funext fun a => Fin.ext (by match a with | ⟨0, _⟩ => rfl | ⟨1, _⟩ => rfl | ⟨2, _⟩ => rfl)))

/-- The residual array: each entry of the layer's input times the residual weight (the contraction is over an axis of one entry). -/
theorem r_at (x0 : (⟨S4096x128, .f32⟩ : BufTy).Contents (Elt Ideal)) (x1 x2 x3 x4 : (⟨S3x1x1, .f32⟩ : BufTy).Contents (Elt Ideal)) (i : S4096x128x1.Idx) :
    val_main_v79 (F := Ideal) x0 x1 x2 x3 x4 i = (val_main_v54 (F := Ideal) x0 x1 x2 x3 x4) (ix3 (i 0) (i 1) (0 : Fin 1)) * x4 (ix3 (2 : Fin 3) (0 : Fin 1) (0 : Fin 1)) := by
  rw [val_main_v79_apply, Fin.sum_univ_one, wr_at]
  exact congrArg (· * x4 (ix3 (2 : Fin 3) (0 : Fin 1) (0 : Fin 1))) (congrArg (val_main_v54 (F := Ideal) x0 x1 x2 x3 x4) (funext fun a => Fin.ext (by match a with | ⟨0, _⟩ => rfl | ⟨1, _⟩ => rfl | ⟨2, _⟩ => rfl)))

/-- The score of field `i 1` against field `i 2` in row `i 0`: query times key. -/
theorem s_at (x0 : (⟨S4096x128, .f32⟩ : BufTy).Contents (Elt Ideal)) (x1 x2 x3 x4 : (⟨S3x1x1, .f32⟩ : BufTy).Contents (Elt Ideal)) (i : S4096x128x128.Idx) :
    val_main_v66 (F := Ideal) x0 x1 x2 x3 x4 i = score (x1 (ix3 (2 : Fin 3) (0 : Fin 1) (0 : Fin 1))) (x2 (ix3 (2 : Fin 3) (0 : Fin 1) (0 : Fin 1))) (fun g : Fin 128 => (val_main_v54 (F := Ideal) x0 x1 x2 x3 x4) (ix3 (i 0) g (0 : Fin 1))) (i 1) (i 2) := by
  rw [val_main_v66_apply, Fin.sum_univ_one, q_at, k_at]
  rfl

/-- The row maximum: the fold of `max` over the row's scores from minus infinity; taking the maximum with minus infinity
    once more changes nothing. -/
theorem m_at (x0 : (⟨S4096x128, .f32⟩ : BufTy).Contents (Elt Ideal)) (x1 x2 x3 x4 : (⟨S3x1x1, .f32⟩ : BufTy).Contents (Elt Ideal)) (j : S4096x128.Idx) :
    val_main_v69 (F := Ideal) x0 x1 x2 x3 x4 j = rowMax (x1 (ix3 (2 : Fin 3) (0 : Fin 1) (0 : Fin 1))) (x2 (ix3 (2 : Fin 3) (0 : Fin 1) (0 : Fin 1))) (fun g : Fin 128 => (val_main_v54 (F := Ideal) x0 x1 x2 x3 x4) (ix3 (j 0) g (0 : Fin 1))) (j 1) := by
  have hm : val_main_v67 (F := Ideal) x0 x1 x2 x3 x4 j = rowMax (x1 (ix3 (2 : Fin 3) (0 : Fin 1) (0 : Fin 1))) (x2 (ix3 (2 : Fin 3) (0 : Fin 1) (0 : Fin 1))) (fun g : Fin 128 => (val_main_v54 (F := Ideal) x0 x1 x2 x3 x4) (ix3 (j 0) g (0 : Fin 1))) (j 1) :=
    (hostMax_last (val_main_v66 (F := Ideal) x0 x1 x2 x3 x4) 0xFF800000#32 reducesTo_S4096x128x128_S4096x128_d2 h_S_ j).trans
      (congrArg (fun φ => Finset.fold max negInf φ (Finset.univ : Finset (Fin 128)))
        (funext fun g => s_at x0 x1 x2 x3 x4 (ix3 (j 0) (j 1) g)))
  rw [val_main_v69_apply, val_main_v68_apply, val_main_cst_6_apply, hm]
  exact max_start_fold _ _ _

/-- The shifted exponential of a score. -/
theorem e_at (x0 : (⟨S4096x128, .f32⟩ : BufTy).Contents (Elt Ideal)) (x1 x2 x3 x4 : (⟨S3x1x1, .f32⟩ : BufTy).Contents (Elt Ideal)) (i : S4096x128x128.Idx) :
    val_main_v73 (F := Ideal) x0 x1 x2 x3 x4 i = expo (x1 (ix3 (2 : Fin 3) (0 : Fin 1) (0 : Fin 1))) (x2 (ix3 (2 : Fin 3) (0 : Fin 1) (0 : Fin 1))) (fun g : Fin 128 => (val_main_v54 (F := Ideal) x0 x1 x2 x3 x4) (ix3 (i 0) g (0 : Fin 1))) (i 1) (i 2) := by
  rw [val_main_v73_apply, val_main_v72_apply, val_main_v71_apply, val_main_v70_apply, m_at, s_at]
  rfl

/-- The softmax's denominator: the sum of the row's shifted exponentials, from zero. -/
theorem d_at (x0 : (⟨S4096x128, .f32⟩ : BufTy).Contents (Elt Ideal)) (x1 x2 x3 x4 : (⟨S3x1x1, .f32⟩ : BufTy).Contents (Elt Ideal)) (j : S4096x128.Idx) :
    val_main_v74 (F := Ideal) x0 x1 x2 x3 x4 j = denom (x1 (ix3 (2 : Fin 3) (0 : Fin 1) (0 : Fin 1))) (x2 (ix3 (2 : Fin 3) (0 : Fin 1) (0 : Fin 1))) (fun g : Fin 128 => (val_main_v54 (F := Ideal) x0 x1 x2 x3 x4) (ix3 (j 0) g (0 : Fin 1))) (j 1) := by
  rw [val_main_v74_apply, val_main_cst_7_apply, Ideal.ofBits_def, Ideal.ofBits_zero_f32, zero_add]
  exact Finset.sum_congr rfl fun g _ => e_at x0 x1 x2 x3 x4 (idx_main_v74 j g)

/-- The softmax: the shifted exponential over the denominator. -/
theorem p_at (x0 : (⟨S4096x128, .f32⟩ : BufTy).Contents (Elt Ideal)) (x1 x2 x3 x4 : (⟨S3x1x1, .f32⟩ : BufTy).Contents (Elt Ideal)) (i : S4096x128x128.Idx) :
    val_main_v77 (F := Ideal) x0 x1 x2 x3 x4 i = Ideal.div (expo (x1 (ix3 (2 : Fin 3) (0 : Fin 1) (0 : Fin 1))) (x2 (ix3 (2 : Fin 3) (0 : Fin 1) (0 : Fin 1))) (fun g : Fin 128 => (val_main_v54 (F := Ideal) x0 x1 x2 x3 x4) (ix3 (i 0) g (0 : Fin 1))) (i 1) (i 2)) (denom (x1 (ix3 (2 : Fin 3) (0 : Fin 1) (0 : Fin 1))) (x2 (ix3 (2 : Fin 3) (0 : Fin 1) (0 : Fin 1))) (fun g : Fin 128 => (val_main_v54 (F := Ideal) x0 x1 x2 x3 x4) (ix3 (i 0) g (0 : Fin 1))) (i 1)) := by
  rw [val_main_v77_apply, val_main_v76_apply, val_main_v75_apply, d_at, e_at]
  rfl

/-- The attention output: the softmax-weighted sum of the values over the row. -/
theorem av_at (x0 : (⟨S4096x128, .f32⟩ : BufTy).Contents (Elt Ideal)) (x1 x2 x3 x4 : (⟨S3x1x1, .f32⟩ : BufTy).Contents (Elt Ideal)) (i : S4096x128x1.Idx) :
    val_main_v78 (F := Ideal) x0 x1 x2 x3 x4 i = ∑ g : Fin 128, Ideal.div (expo (x1 (ix3 (2 : Fin 3) (0 : Fin 1) (0 : Fin 1))) (x2 (ix3 (2 : Fin 3) (0 : Fin 1) (0 : Fin 1))) (fun g : Fin 128 => (val_main_v54 (F := Ideal) x0 x1 x2 x3 x4) (ix3 (i 0) g (0 : Fin 1))) (i 1) g) (denom (x1 (ix3 (2 : Fin 3) (0 : Fin 1) (0 : Fin 1))) (x2 (ix3 (2 : Fin 3) (0 : Fin 1) (0 : Fin 1))) (fun g : Fin 128 => (val_main_v54 (F := Ideal) x0 x1 x2 x3 x4) (ix3 (i 0) g (0 : Fin 1))) (i 1))
        * ((val_main_v54 (F := Ideal) x0 x1 x2 x3 x4) (ix3 (i 0) g (0 : Fin 1)) * x3 (ix3 (2 : Fin 3) (0 : Fin 1) (0 : Fin 1))) := by
  rw [val_main_v78_apply]
  refine Finset.sum_congr rfl fun g _ => ?_
  rw [p_at, v_at]
  rfl

/-- The layer's result at `i` is the specification's layer 2 on row `i 0` of the layer's input, at field `i 1`. -/
theorem out_at (x0 : (⟨S4096x128, .f32⟩ : BufTy).Contents (Elt Ideal)) (x1 x2 x3 x4 : (⟨S3x1x1, .f32⟩ : BufTy).Contents (Elt Ideal)) (i : S4096x128x1.Idx) :
    val_main_v81 (F := Ideal) x0 x1 x2 x3 x4 i = layerAt x1 x2 x3 x4 (2 : Fin 3) (fun g : Fin 128 => (val_main_v54 (F := Ideal) x0 x1 x2 x3 x4) (ix3 (i 0) g (0 : Fin 1))) (i 1) := by
  rw [val_main_v81_apply, val_main_v80_apply, av_at, r_at, val_main_call2_v0_apply, val_main_call2_cst_apply, Ideal.ofBits_def, Ideal.ofBits_zero_f32]
  rfl

end Cert.RefValue.L2

end
-- ==== Proof.RefHead.lean ====
/-
  The head of the reference program is the specification's head, read entry by entry.

  After the three interaction layers the [4096, 128, 1] array is reshaped to [4096, 128]; row `b` of it is the vector
  `g ↦ reshaped (b, g)`. Two dense layers (a matrix product, a bias broadcast along the rows, a clamp at zero) and a
  last matrix product with a [128, 1] matrix follow. Each stage is identified with the specification's function.
-/
import proofs.«101517_j51651276702509_2_alg».proof.Proof.RefReadP
import proofs.«101517_j51651276702509_2_alg».proof.Proof.Spec

noncomputable section

open scoped BigOperators

namespace Cert.RefValue.Head

open Cert.ReferenceIdeal Cert.ReferenceIdeal.Gen Cert.ReferenceIdeal.ReadP Idealize.ShloMosaic Idealize.ShloMosaic.ValueIdx Cert.Spec

/-- The reshape [4096, 128, 1] → [4096, 128] reads entry (b, g) at (b, g, 0): the row-major position b·128 + g splits back
    into quotient b and remainder g. -/
theorem flat_at (x0 : (⟨S4096x128, .f32⟩ : BufTy).Contents (Elt Ideal)) (x1 x2 x3 x4 : (⟨S3x1x1, .f32⟩ : BufTy).Contents (Elt Ideal)) (i : S4096x128.Idx) :
    val_main_v82 (F := Ideal) x0 x1 x2 x3 x4 i = val_main_v81 (F := Ideal) x0 x1 x2 x3 x4 (ix3 (i 0) (i 1) (0 : Fin 1)) := by
  rw [val_main_v82_apply]
  refine congrArg (val_main_v81 (F := Ideal) x0 x1 x2 x3 x4) (funext fun a => Fin.ext ?_)
  have h1 : (i 1).val < 128 := idx2_lt1 i
  match a with
  | ⟨0, _⟩ => show ((i 0).val * 128 + (i 1).val) / 128 = (i 0).val; omega
  | ⟨1, _⟩ => show ((i 0).val * 128 + (i 1).val) / 1 % 128 = (i 1).val; omega
  | ⟨2, _⟩ => rfl

/-- The first matrix product: row `i 0` of the reshaped array against column `i 1` of the first weight matrix. -/
theorem mm1_at (x0 : (⟨S4096x128, .f32⟩ : BufTy).Contents (Elt Ideal)) (x1 x2 x3 x4 : (⟨S3x1x1, .f32⟩ : BufTy).Contents (Elt Ideal)) (x5 : (⟨S128x256, .f32⟩ : BufTy).Contents (Elt Ideal)) (i : S4096x256.Idx) :
    val_main_v83 (F := Ideal) x0 x1 x2 x3 x4 x5 i = ∑ k : Fin 128, (val_main_v82 (F := Ideal) x0 x1 x2 x3 x4) (ix2 (i 0) k) * x5 (ix2 k (i 1)) := by
  rw [val_main_v83_apply]
  refine Finset.sum_congr rfl fun k _ => ?_
  have el : lidx_main_v83 i k = ix2 (i 0) k := funext fun a => Fin.ext (by match a with | ⟨0, _⟩ => rfl | ⟨1, _⟩ => rfl)
  have er : ridx_main_v83 i k = ix2 k (i 1) := funext fun a => Fin.ext (by match a with | ⟨0, _⟩ => rfl | ⟨1, _⟩ => rfl)
  exact congrArg₂ (fun a b => a * b) (congrArg (val_main_v82 (F := Ideal) x0 x1 x2 x3 x4) el) (congrArg x5 er)

/-- The first bias, broadcast along the rows, is entry `i 1` of the bias vector. -/
theorem bias1_at (x6 : (⟨S256, .f32⟩ : BufTy).Contents (Elt Ideal)) (i : S4096x256.Idx) :
    val_main_v85 (F := Ideal) x6 i = x6 (ix1 (i 1)) := by
  rw [val_main_v85_apply, val_main_v84_apply]
  exact congrArg x6 (funext fun a => Fin.ext (by match a with | ⟨0, _⟩ => rfl))

/-- The first dense layer at (b, j) is the specification's on row `b` of the reshaped array. -/
theorem dense1_at (x0 : (⟨S4096x128, .f32⟩ : BufTy).Contents (Elt Ideal)) (x1 x2 x3 x4 : (⟨S3x1x1, .f32⟩ : BufTy).Contents (Elt Ideal)) (x5 : (⟨S128x256, .f32⟩ : BufTy).Contents (Elt Ideal)) (x6 : (⟨S256, .f32⟩ : BufTy).Contents (Elt Ideal)) (i : S4096x256.Idx) :
    val_main_v87 (F := Ideal) x0 x1 x2 x3 x4 x5 x6 i = dense1 x5 x6 (fun g : Fin 128 => (val_main_v82 (F := Ideal) x0 x1 x2 x3 x4) (ix2 (i 0) g)) (i 1) := by
  rw [val_main_v87_apply, val_main_v86_apply, mm1_at, bias1_at, val_main_call3_v0_apply, val_main_call3_cst_apply,
    Ideal.ofBits_def, Ideal.ofBits_zero_f32]
  rfl

/-- The second matrix product: row `i 0` of the first dense layer against column `i 1` of the second weight matrix. -/
theorem mm2_at (x0 : (⟨S4096x128, .f32⟩ : BufTy).Contents (Elt Ideal)) (x1 x2 x3 x4 : (⟨S3x1x1, .f32⟩ : BufTy).Contents (Elt Ideal)) (x5 : (⟨S128x256, .f32⟩ : BufTy).Contents (Elt Ideal)) (x6 : (⟨S256, .f32⟩ : BufTy).Contents (Elt Ideal)) (x7 : (⟨S256x128, .f32⟩ : BufTy).Contents (Elt Ideal)) (i : S4096x128.Idx) :
    val_main_v88 (F := Ideal) x0 x1 x2 x3 x4 x5 x6 x7 i = ∑ k : Fin 256, (val_main_v87 (F := Ideal) x0 x1 x2 x3 x4 x5 x6) (ix2 (i 0) k) * x7 (ix2 k (i 1)) := by
  rw [val_main_v88_apply]
  refine Finset.sum_congr rfl fun k _ => ?_
  have el : lidx_main_v88 i k = ix2 (i 0) k := funext fun a => Fin.ext (by match a with | ⟨0, _⟩ => rfl | ⟨1, _⟩ => rfl)
  have er : ridx_main_v88 i k = ix2 k (i 1) := funext fun a => Fin.ext (by match a with | ⟨0, _⟩ => rfl | ⟨1, _⟩ => rfl)
  exact congrArg₂ (fun a b => a * b) (congrArg (val_main_v87 (F := Ideal) x0 x1 x2 x3 x4 x5 x6) el) (congrArg x7 er)

/-- The second bias, broadcast along the rows, is entry `i 1` of the bias vector. -/
theorem bias2_at (x8 : (⟨S128, .f32⟩ : BufTy).Contents (Elt Ideal)) (i : S4096x128.Idx) :
    val_main_v90 (F := Ideal) x8 i = x8 (ix1 (i 1)) := by
  rw [val_main_v90_apply, val_main_v89_apply]
  exact congrArg x8 (funext fun a => Fin.ext (by match a with | ⟨0, _⟩ => rfl))

/-- The second dense layer at (b, k) is the specification's on row `b` of the first dense layer. -/
theorem dense2_at (x0 : (⟨S4096x128, .f32⟩ : BufTy).Contents (Elt Ideal)) (x1 x2 x3 x4 : (⟨S3x1x1, .f32⟩ : BufTy).Contents (Elt Ideal)) (x5 : (⟨S128x256, .f32⟩ : BufTy).Contents (Elt Ideal)) (x6 : (⟨S256, .f32⟩ : BufTy).Contents (Elt Ideal)) (x7 : (⟨S256x128, .f32⟩ : BufTy).Contents (Elt Ideal)) (x8 : (⟨S128, .f32⟩ : BufTy).Contents (Elt Ideal)) (i : S4096x128.Idx) :
    val_main_v92 (F := Ideal) x0 x1 x2 x3 x4 x5 x6 x7 x8 i = dense2 x7 x8 (fun j : Fin 256 => (val_main_v87 (F := Ideal) x0 x1 x2 x3 x4 x5 x6) (ix2 (i 0) j)) (i 1) := by
  rw [val_main_v92_apply, val_main_v91_apply, mm2_at, bias2_at, val_main_call4_v0_apply, val_main_call4_cst_apply,
    Ideal.ofBits_def, Ideal.ofBits_zero_f32]
  rfl

/-- The last matrix product: row `i 0` of the second dense layer against the one column of the last weight matrix. -/
theorem mm3_at (x0 : (⟨S4096x128, .f32⟩ : BufTy).Contents (Elt Ideal)) (x1 x2 x3 x4 : (⟨S3x1x1, .f32⟩ : BufTy).Contents (Elt Ideal)) (x5 : (⟨S128x256, .f32⟩ : BufTy).Contents (Elt Ideal)) (x6 : (⟨S256, .f32⟩ : BufTy).Contents (Elt Ideal)) (x7 : (⟨S256x128, .f32⟩ : BufTy).Contents (Elt Ideal)) (x8 : (⟨S128, .f32⟩ : BufTy).Contents (Elt Ideal)) (x9 : (⟨S128x1, .f32⟩ : BufTy).Contents (Elt Ideal)) (i : S4096x1.Idx) :
    val_main_v93 (F := Ideal) x0 x1 x2 x3 x4 x5 x6 x7 x8 x9 i = ∑ k : Fin 128, (val_main_v92 (F := Ideal) x0 x1 x2 x3 x4 x5 x6 x7 x8) (ix2 (i 0) k) * x9 (ix2 k (0 : Fin 1)) := by
  rw [val_main_v93_apply]
  refine Finset.sum_congr rfl fun k _ => ?_
  have h1 : (i 1).val < 1 := idx2_lt1 i
  have el : lidx_main_v93 i k = ix2 (i 0) k := funext fun a => Fin.ext (by match a with | ⟨0, _⟩ => rfl | ⟨1, _⟩ => rfl)
  have er : ridx_main_v93 i k = ix2 k (0 : Fin 1) := funext fun a => Fin.ext
    (by match a with
        | ⟨0, _⟩ => rfl
        | ⟨1, _⟩ => show (i 1).val = 0; omega)
  exact congrArg₂ (fun a b => a * b) (congrArg (val_main_v92 (F := Ideal) x0 x1 x2 x3 x4 x5 x6 x7 x8) el) (congrArg x9 er)

/-- The program's result at `i` is the specification's head on row `i 0` of the reshaped array. -/
theorem head_at (x0 : (⟨S4096x128, .f32⟩ : BufTy).Contents (Elt Ideal)) (x1 x2 x3 x4 : (⟨S3x1x1, .f32⟩ : BufTy).Contents (Elt Ideal)) (x5 : (⟨S128x256, .f32⟩ : BufTy).Contents (Elt Ideal)) (x6 : (⟨S256, .f32⟩ : BufTy).Contents (Elt Ideal)) (x7 : (⟨S256x128, .f32⟩ : BufTy).Contents (Elt Ideal)) (x8 : (⟨S128, .f32⟩ : BufTy).Contents (Elt Ideal)) (x9 : (⟨S128x1, .f32⟩ : BufTy).Contents (Elt Ideal)) (i : S4096x1.Idx) :
    val_main_v93 (F := Ideal) x0 x1 x2 x3 x4 x5 x6 x7 x8 x9 i = head x5 x6 x7 x8 x9 (fun g : Fin 128 => (val_main_v82 (F := Ideal) x0 x1 x2 x3 x4) (ix2 (i 0) g)) := by
  rw [mm3_at]
  have hd : (fun j : Fin 256 => (val_main_v87 (F := Ideal) x0 x1 x2 x3 x4 x5 x6) (ix2 (i 0) j))
      = dense1 x5 x6 (fun g : Fin 128 => (val_main_v82 (F := Ideal) x0 x1 x2 x3 x4) (ix2 (i 0) g)) :=
    funext fun j => dense1_at x0 x1 x2 x3 x4 x5 x6 (ix2 (i 0) j)
  unfold head proj
  refine Finset.sum_congr rfl fun k _ => ?_
  rw [dense2_at]
  exact congrArg (fun φ => dense2 x7 x8 φ k * x9 (ix2 k (0 : Fin 1))) hd

end Cert.RefValue.Head

end
-- ==== Proof.RefValue.lean ====
/-
  The reference program's value is the specification: the three interaction layers, row by row, then the head.
-/
import proofs.«101517_j51651276702509_2_alg».proof.Proof.RefLayer0
import proofs.«101517_j51651276702509_2_alg».proof.Proof.RefLayer1
import proofs.«101517_j51651276702509_2_alg».proof.Proof.RefLayer2
import proofs.«101517_j51651276702509_2_alg».proof.Proof.RefHead

noncomputable section

open scoped BigOperators

namespace Cert.RefValue

open Cert.ReferenceIdeal Cert.ReferenceIdeal.Gen Cert.ReferenceIdeal.ReadP Idealize.ShloMosaic Idealize.ShloMosaic.ValueIdx Cert.Spec

/-- Row `b` of the input array with a unit axis appended is row `b` of the input. -/
theorem row0 (x0 : (⟨S4096x128, .f32⟩ : BufTy).Contents (Elt Ideal)) (b : Fin 4096) :
    (fun g : Fin 128 => (val_main_v0 (F := Ideal) x0) (ix3 b g (0 : Fin 1))) = fun f : Fin 128 => x0 (ix2 b f) :=
  funext fun g => by
    rw [val_main_v0_apply]
    exact congrArg x0 (funext fun a => Fin.ext (by match a with | ⟨0, _⟩ => rfl | ⟨1, _⟩ => rfl))

/-- Row `b` after the first layer. -/
theorem row1 (x0 : (⟨S4096x128, .f32⟩ : BufTy).Contents (Elt Ideal)) (x1 x2 x3 x4 : (⟨S3x1x1, .f32⟩ : BufTy).Contents (Elt Ideal)) (b : Fin 4096) :
    (fun g : Fin 128 => (val_main_v27 (F := Ideal) x0 x1 x2 x3 x4) (ix3 b g (0 : Fin 1)))
      = layerAt x1 x2 x3 x4 0 (fun f : Fin 128 => x0 (ix2 b f)) :=
  funext fun g => (L0.out_at x0 x1 x2 x3 x4 (ix3 b g (0 : Fin 1))).trans
    (congrArg (fun a => layerAt x1 x2 x3 x4 0 a g) (row0 x0 b))

/-- Row `b` after the second layer. -/
theorem row2 (x0 : (⟨S4096x128, .f32⟩ : BufTy).Contents (Elt Ideal)) (x1 x2 x3 x4 : (⟨S3x1x1, .f32⟩ : BufTy).Contents (Elt Ideal)) (b : Fin 4096) :
    (fun g : Fin 128 => (val_main_v54 (F := Ideal) x0 x1 x2 x3 x4) (ix3 b g (0 : Fin 1)))
      = layerAt x1 x2 x3 x4 1 (layerAt x1 x2 x3 x4 0 (fun f : Fin 128 => x0 (ix2 b f))) :=
  funext fun g => (L1.out_at x0 x1 x2 x3 x4 (ix3 b g (0 : Fin 1))).trans
    (congrArg (fun a => layerAt x1 x2 x3 x4 1 a g) (row1 x0 x1 x2 x3 x4 b))

/-- Row `b` after the third layer is the specification's `att`. -/
theorem row3 (x0 : (⟨S4096x128, .f32⟩ : BufTy).Contents (Elt Ideal)) (x1 x2 x3 x4 : (⟨S3x1x1, .f32⟩ : BufTy).Contents (Elt Ideal)) (b : Fin 4096) :
    (fun g : Fin 128 => (val_main_v81 (F := Ideal) x0 x1 x2 x3 x4) (ix3 b g (0 : Fin 1))) = att x0 x1 x2 x3 x4 b :=
  funext fun g => (L2.out_at x0 x1 x2 x3 x4 (ix3 b g (0 : Fin 1))).trans
    (congrArg (fun a => layerAt x1 x2 x3 x4 2 a g) (row2 x0 x1 x2 x3 x4 b))

/-- Row `b` of the reshaped array is the same row. -/
theorem rowFlat (x0 : (⟨S4096x128, .f32⟩ : BufTy).Contents (Elt Ideal)) (x1 x2 x3 x4 : (⟨S3x1x1, .f32⟩ : BufTy).Contents (Elt Ideal)) (b : Fin 4096) :
    (fun g : Fin 128 => (val_main_v82 (F := Ideal) x0 x1 x2 x3 x4) (ix2 b g)) = att x0 x1 x2 x3 x4 b :=
  (funext fun g => Head.flat_at x0 x1 x2 x3 x4 (ix2 b g)).trans (row3 x0 x1 x2 x3 x4 b)

/-- The reference program computes the specification `G`. -/
theorem ref_eq_G (x0 : (⟨S4096x128, .f32⟩ : BufTy).Contents (Elt Ideal)) (x1 x2 x3 x4 : (⟨S3x1x1, .f32⟩ : BufTy).Contents (Elt Ideal)) (x5 : (⟨S128x256, .f32⟩ : BufTy).Contents (Elt Ideal)) (x6 : (⟨S256, .f32⟩ : BufTy).Contents (Elt Ideal)) (x7 : (⟨S256x128, .f32⟩ : BufTy).Contents (Elt Ideal)) (x8 : (⟨S128, .f32⟩ : BufTy).Contents (Elt Ideal)) (x9 : (⟨S128x1, .f32⟩ : BufTy).Contents (Elt Ideal)) :
    Cert.ReferenceIdeal.ReadP.val_main_v93 (F := Ideal) x0 x1 x2 x3 x4 x5 x6 x7 x8 x9 = Cert.Spec.G x0 x1 x2 x3 x4 x5 x6 x7 x8 x9 :=
  funext fun i => (Head.head_at x0 x1 x2 x3 x4 x5 x6 x7 x8 x9 i).trans
    (congrArg (head x5 x6 x7 x8 x9) (rowFlat x0 x1 x2 x3 x4 (i 0)))

end Cert.RefValue

end
-- ==== Proof.KFound.lean ====
/-
  What each control case of the kernel body leaves behind, as pure functions of what it loads.

  The body keeps a [128,128] block in a scratch buffer across the three grid points of one batch tile. At the first point
  of a tile it copies the input block into the scratch; at every point it replaces the scratch by one interaction layer of
  its contents (the sum over the last axis `k0_pay4`, the residual `k0_pay5`, their clamped sum `k0_pay1`); at the last
  point of a tile it also writes the head `k0_pay2` of the NEW scratch contents into the output block.
  Each statement below reads the stores that the body's run found back as one such term.
-/
import proofs.«101517_j51651276702509_2_alg».proof.Proof.Gen.KernelIdeal.Value
import Idealize.ShloMosaic.Lib.Pipeline.Value
import Idealize.ShloMosaic.Lib.Tactic

set_option maxRecDepth 16384

noncomputable section

namespace Cert.KernelIdeal.Found

open Cert.KernelIdeal Cert.KernelIdeal.Gen Idealize.ShloMosaic Idealize.ShloMosaic.TcCoe Idealize.ShloMosaic.Tactic Idealize.SL.Sem
open Idealize.ShloMosaic.Pipeline (Dat)

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- One layer step on a block `a` with the four weight blocks: the new contents of the scratch. -/
abbrev step (a : Vec F S128x128 .f32) (q k v w : Vec F S1x1x1 .f32) : Vec F S128x128 .f32 :=
  k0_pay1 (k0_pay4 a q k v) (k0_pay5 a w)

/-- A middle point of a tile: the scratch held `xs0` and ends at one layer step of it. -/
theorem sout_B (c : Dev nD) (i : grid0.Coords) (arg2 : Memref sig .tc .vmem S1x1x1 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S128x128 .f32) (harg6 : arg6.IsWhole) (arg7 : Memref sig .tc .vmem S128x256 .f32) (harg7 : arg7.IsWhole) (arg8 : Memref sig .tc .vmem S256 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128x1 .f32) (harg11 : arg11.IsWhole) (arg12 : Memref sig .tc .vmem S128x1 .f32) (harg12 : arg12.IsWhole) (arg13 : Memref sig .tc .vmem S128x128 .f32) (harg13 : arg13.IsWhole) (hc0 : ¬cond0_0 i) (hc1 : ¬cond0_1 i)
    (x0 : Vec F S1x1x1 .f32) (x1 : Vec F S1x1x1 .f32) (x2 : Vec F S1x1x1 .f32) (x3 : Vec F S1x1x1 .f32) (x4 : Vec F S128x128 .f32) (x5 : Vec F S128x256 .f32) (x6 : Vec F S256 .f32) (x7 : Vec F S256x128 .f32) (x8 : Vec F S128 .f32) (x9 : Vec F S128x1 .f32) (xs0 : Vec F S128x128 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = step xs0 x0 x1 x2 x3 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S128x128) hz2, View.ld_unit_zero (S := S1x1x1) hz3, View.ld_unit_zero (S := S128x256) hz2, View.ld_unit_zero (S := S256x128) hz2, View.ld_unit_zero (S := S128x1) hz2, View.ld_unit_zero (S := S256) hz1, View.ld_unit_zero (S := S128) hz1]

/-- The last point of a tile: the scratch held `xs0` and ends at one layer step of it. -/
theorem sout_C (c : Dev nD) (i : grid0.Coords) (arg2 : Memref sig .tc .vmem S1x1x1 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S128x128 .f32) (harg6 : arg6.IsWhole) (arg7 : Memref sig .tc .vmem S128x256 .f32) (harg7 : arg7.IsWhole) (arg8 : Memref sig .tc .vmem S256 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128x1 .f32) (harg11 : arg11.IsWhole) (arg12 : Memref sig .tc .vmem S128x1 .f32) (harg12 : arg12.IsWhole) (arg13 : Memref sig .tc .vmem S128x128 .f32) (harg13 : arg13.IsWhole) (hc0 : ¬cond0_0 i) (hc1 : cond0_1 i)
    (x0 : Vec F S1x1x1 .f32) (x1 : Vec F S1x1x1 .f32) (x2 : Vec F S1x1x1 .f32) (x3 : Vec F S1x1x1 .f32) (x4 : Vec F S128x128 .f32) (x5 : Vec F S128x256 .f32) (x6 : Vec F S256 .f32) (x7 : Vec F S256x128 .f32) (x8 : Vec F S128 .f32) (x9 : Vec F S128x1 .f32) (xs0 : Vec F S128x128 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = step xs0 x0 x1 x2 x3 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S128x128) hz2, View.ld_unit_zero (S := S1x1x1) hz3, View.ld_unit_zero (S := S128x256) hz2, View.ld_unit_zero (S := S256x128) hz2, View.ld_unit_zero (S := S128x1) hz2, View.ld_unit_zero (S := S256) hz1, View.ld_unit_zero (S := S128) hz1]

/-- The first point of a tile: the scratch is first set to (a copy of) the input block `x4`, then stepped. -/
theorem sout_A (c : Dev nD) (i : grid0.Coords) (arg2 : Memref sig .tc .vmem S1x1x1 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S128x128 .f32) (harg6 : arg6.IsWhole) (arg7 : Memref sig .tc .vmem S128x256 .f32) (harg7 : arg7.IsWhole) (arg8 : Memref sig .tc .vmem S256 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128x1 .f32) (harg11 : arg11.IsWhole) (arg12 : Memref sig .tc .vmem S128x1 .f32) (harg12 : arg12.IsWhole) (arg13 : Memref sig .tc .vmem S128x128 .f32) (harg13 : arg13.IsWhole) (hc0 : cond0_0 i) (hc1 : ¬cond0_1 i)
    (x0 : Vec F S1x1x1 .f32) (x1 : Vec F S1x1x1 .f32) (x2 : Vec F S1x1x1 .f32) (x3 : Vec F S1x1x1 .f32) (x4 : Vec F S128x128 .f32) (x5 : Vec F S128x256 .f32) (x6 : Vec F S256 .f32) (x7 : Vec F S256x128 .f32) (x8 : Vec F S128 .f32) (x9 : Vec F S128x1 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 = step (k0_pay3 x4) x0 x1 x2 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9)]
  unfold kernelRun0_A
  dsimp only
  sl_unfold_words
  rw [View.canon_cons_unit_zero (S := S128x128) hz2, View.readCov_unit_zero (S := S128x128) _ hz2]
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S128x128) hz2, View.ld_unit_zero (S := S1x1x1) hz3, View.ld_unit_zero (S := S128x256) hz2, View.ld_unit_zero (S := S256x128) hz2, View.ld_unit_zero (S := S128x1) hz2, View.ld_unit_zero (S := S256) hz1, View.ld_unit_zero (S := S128) hz1]

/-- The last point of a tile: the output block ends at the head of the NEW scratch contents. -/
theorem out_C (c : Dev nD) (i : grid0.Coords) (arg2 : Memref sig .tc .vmem S1x1x1 .f32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S128x128 .f32) (harg6 : arg6.IsWhole) (arg7 : Memref sig .tc .vmem S128x256 .f32) (harg7 : arg7.IsWhole) (arg8 : Memref sig .tc .vmem S256 .f32) (harg8 : arg8.IsWhole) (arg9 : Memref sig .tc .vmem S256x128 .f32) (harg9 : arg9.IsWhole) (arg10 : Memref sig .tc .vmem S128 .f32) (harg10 : arg10.IsWhole) (arg11 : Memref sig .tc .vmem S128x1 .f32) (harg11 : arg11.IsWhole) (arg12 : Memref sig .tc .vmem S128x1 .f32) (harg12 : arg12.IsWhole) (arg13 : Memref sig .tc .vmem S128x128 .f32) (harg13 : arg13.IsWhole) (hc0 : ¬cond0_0 i) (hc1 : cond0_1 i)
    (x0 : Vec F S1x1x1 .f32) (x1 : Vec F S1x1x1 .f32) (x2 : Vec F S1x1x1 .f32) (x3 : Vec F S1x1x1 .f32) (x4 : Vec F S128x128 .f32) (x5 : Vec F S128x256 .f32) (x6 : Vec F S256 .f32) (x7 : Vec F S256x128 .f32) (x8 : Vec F S128 .f32) (x9 : Vec F S128x1 .f32) (xs0 : Vec F S128x128 .f32) :
    out0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = k0_pay2 (step xs0 x0 x1 x2 x3) x5 x6 x7 x8 x9 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_C
  dsimp only
  sl_unfold_words
  rw [View.canon_unit_zero hz2, View.readCov_unit_zero (S := S128x128) _ hz2]
  simp only [View.readAt_eq_ld, harg2.read_unread, harg3.read_unread, harg4.read_unread, harg5.read_unread, harg6.read_unread, harg7.read_unread, harg8.read_unread, harg9.read_unread, harg10.read_unread, harg11.read_unread, harg13.read_unread, View.ld_unit_zero (S := S128x128) hz2, View.ld_unit_zero (S := S1x1x1) hz3, View.ld_unit_zero (S := S128x256) hz2, View.ld_unit_zero (S := S256x128) hz2, View.ld_unit_zero (S := S128x1) hz2, View.ld_unit_zero (S := S256) hz1, View.ld_unit_zero (S := S128) hz1]

end Cert.KernelIdeal.Found

end
-- ==== Proof.KFold.lean ====
/-
  The three grid points of one batch tile, composed.

  Point `t` of the grid works on batch tile `t / 3` at layer `t % 3`. After the first point of a tile the scratch holds one
  layer step of the input block; after each later point one more step of what the point before left; and at the last
  point the output block holds the head of the scratch's new contents. So after the last point of a tile the output block
  is the head of three layer steps of the tile's input block, each step with its own point's weight blocks.
-/
import proofs.«101517_j51651276702509_2_alg».proof.Proof.KFound

set_option maxRecDepth 16384

noncomputable section

namespace Cert.KernelIdeal.Fold

open Cert.KernelIdeal Cert.KernelIdeal.Gen Cert.KernelIdeal.Found Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- What the scratch holds after point `t`. -/
abbrev scr (c : Dev nD) (t : Fin cfg0.N) : Vec F S128x128 .f32 := (outsAt0 m c t.val t.isLt).2

/-- The same point under another spelling of its number. -/
theorem outsAt0_congr (c : Dev nD) {n n' : ℕ} (h : n = n') (hn : n < cfg0.N) (hn' : n' < cfg0.N) :
    outsAt0 m c n hn = outsAt0 m c n' hn' := by subst h; rfl

/-- One layer step with the weight blocks of point `t`. -/
abbrev stepAt (c : Dev nD) (t : Fin cfg0.N) (a : Vec F S128x128 .f32) : Vec F S128x128 .f32 :=
  step a (iblk m c 0 t) (iblk m c 1 t) (iblk m c 2 t) (iblk m c 3 t)

/-- First point of a tile: the scratch ends at one step of (a copy of) the tile's input block. -/
theorem scr_first (c : Dev nD) (t : Fin cfg0.N) (h0 : t.val % 3 = 0) :
    scr m c t = stepAt m c t (k0_pay3 (iblk m c 4 t)) := by
  have h1 : ¬t.val % 3 = 2 := by omega
  show (outsAt0 m c t.val t.isLt).2 = _
  rw [outsAt0_A m c t h0 h1]
  exact sout_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)

/-- A middle point: the scratch ends at one step of what the point before left. -/
theorem scr_mid (c : Dev nD) (t : Fin cfg0.N) (h0 : ¬t.val % 3 = 0) (h1 : ¬t.val % 3 = 2) :
    scr m c t = stepAt m c t (outsAt0 m c (t.val - 1) (Nat.lt_of_le_of_lt (Nat.sub_le _ _) t.isLt)).2 := by
  show (outsAt0 m c t.val t.isLt).2 = _
  rw [outsAt0_B m c t h0 h1]
  exact sout_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2

/-- The last point: the output block ends at the head of one step of what the point before left. -/
theorem out_last (c : Dev nD) (t : Fin cfg0.N) (h0 : ¬t.val % 3 = 0) (h1 : t.val % 3 = 2) :
    (outsAt0 m c t.val t.isLt).1
      = k0_pay2 (stepAt m c t (outsAt0 m c (t.val - 1) (Nat.lt_of_le_of_lt (Nat.sub_le _ _) t.isLt)).2) (iblk m c 5 t) (iblk m c 6 t) (iblk m c 7 t) (iblk m c 8 t) (iblk m c 9 t) := by
  rw [outsAt0_C m c t h0 h1]
  exact out_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2

/-- The point `k` places before `t`. -/
abbrev back (t : Fin cfg0.N) (k : ℕ) : Fin cfg0.N := ⟨t.val - k, Nat.lt_of_le_of_lt (Nat.sub_le _ _) t.isLt⟩

/-- After the last point `t` of a tile the output block is the head of three steps of the tile's input block: the steps of
    the points `t - 2`, `t - 1`, `t`, the first of them on the input block read at `t - 2`. -/
theorem out_tile (c : Dev nD) (t : Fin cfg0.N) (h2 : t.val % 3 = 2) :
    (outsAt0 m c t.val t.isLt).1
      = k0_pay2 (stepAt m c t (stepAt m c (back t 1) (stepAt m c (back t 2) (k0_pay3 (iblk m c 4 (back t 2))))))
          (iblk m c 5 t) (iblk m c 6 t) (iblk m c 7 t) (iblk m c 8 t) (iblk m c 9 t) := by
  have e2 := out_last m c t (by omega) h2
  have e1 := scr_mid m c (back t 1) (by show ¬(t.val - 1) % 3 = 0; omega) (by show ¬(t.val - 1) % 3 = 2; omega)
  have e0 := scr_first m c (back t 2) (by show (t.val - 2) % 3 = 0; omega)
  have p1 : (outsAt0 m c (t.val - 1) (Nat.lt_of_le_of_lt (Nat.sub_le _ _) t.isLt)).2 = scr m c (back t 1) := rfl
  have p0 : (outsAt0 m c ((back t 1).val - 1) (Nat.lt_of_le_of_lt (Nat.sub_le _ _) (back t 1).isLt)).2 = scr m c (back t 2) :=
    congrArg Prod.snd (outsAt0_congr m c (show (back t 1).val - 1 = (back t 2).val by show t.val - 1 - 1 = t.val - 2; omega) _ _)
  rw [e2, p1, e1, p0, e0]

end Cert.KernelIdeal.Fold

end
-- ==== Proof.KPay.lean ====
/-
  The kernel body's arithmetic, read at an index (on the extended reals).

  The body works on one block of 128 rows. It spreads a [128,128] array along a new last axis (entry (r,f,g) is the
  operand at (r,f)) or a new middle axis (entry (r,f,g) is the operand at (r,g)), multiplies, and reduces the last axis
  by a maximum or a sum. Read at an index these are: a product of two entries of the row, the fold of `max` over `g`,
  and a `Finset` sum over `g`. Composed, the new contents of the carried block at (r,f) are one interaction layer
  (`Cert.Spec.layer`) of row `r` of the old contents, and the head's output at (r,0) is `Cert.Spec.head` of row `r`.
-/
import proofs.«101517_j51651276702509_2_alg».proof.Proof.Gen.KernelIdeal.Skeleton
import proofs.«101517_j51651276702509_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The two spreads and the two reductions -/

/-- [128,128] spread along a new LAST axis: entry (r,f,g) is the operand at (r,f). -/
abbrev spreadLast {α : Type} (x : S128x128.Idx → α) : S128x128x128.Idx → α :=
  broadcastTo S128x128x128 (shapeCast S128x128x1 x shapeCasts_S128x128_S128x128x1) broadcasts_S128x128x1_S128x128x128

/-- [128,128] spread along a new MIDDLE axis: entry (r,f,g) is the operand at (r,g). -/
abbrev spreadMid {α : Type} (x : S128x128.Idx → α) : S128x128x128.Idx → α :=
  broadcastTo S128x128x128 (shapeCast S128x1x128 x shapeCasts_S128x128_S128x1x128) broadcasts_S128x1x128_S128x128x128

theorem spreadLast_at {α : Type} (x : S128x128.Idx → α) (r f g : Fin 128) : spreadLast x (ix3 r f g) = x (ix2 r f) := by
  refine (broadcastTo_apply _ broadcasts_S128x128x1_S128x128x128 (ix3 r f g) (ix3 r f (0 : Fin 1)) (fun a => ?_)).trans ?_
  · match a with
    | ⟨0, _⟩ => show r.val = if (128 : Nat) = 1 then 0 else r.val; rw [if_neg (by decide)]
    | ⟨1, _⟩ => show f.val = if (128 : Nat) = 1 then 0 else f.val; rw [if_neg (by decide)]
    | ⟨2, _⟩ => show (0 : Nat) = if (1 : Nat) = 1 then 0 else g.val; rw [if_pos rfl]
  · refine shapeCast_apply x shapeCasts_S128x128_S128x128x1 (ix3 r f (0 : Fin 1)) (ix2 r f) ?_
    rw [Shape.rowMajor_val_two, Shape.rowMajor_val_three]
    show r.val * 128 + f.val = (r.val * 128 + f.val) * 1 + 0
    omega

theorem spreadMid_at {α : Type} (x : S128x128.Idx → α) (r f g : Fin 128) : spreadMid x (ix3 r f g) = x (ix2 r g) := by
  refine (broadcastTo_apply _ broadcasts_S128x1x128_S128x128x128 (ix3 r f g) (ix3 r (0 : Fin 1) g) (fun a => ?_)).trans ?_
  · match a with
    | ⟨0, _⟩ => show r.val = if (128 : Nat) = 1 then 0 else r.val; rw [if_neg (by decide)]
    | ⟨1, _⟩ => show (0 : Nat) = if (1 : Nat) = 1 then 0 else f.val; rw [if_pos rfl]
    | ⟨2, _⟩ => show g.val = if (128 : Nat) = 1 then 0 else g.val; rw [if_neg (by decide)]
  · refine shapeCast_apply x shapeCasts_S128x128_S128x1x128 (ix3 r (0 : Fin 1) g) (ix2 r g) ?_
    rw [Shape.rowMajor_val_two, Shape.rowMajor_val_three]
    show r.val * 128 + g.val = (r.val * 1 + 0) * 128 + g.val
    omega

/-- The index (r,f) of the reduced array with coordinate g put back on the last axis. -/
theorem lift_at (r f g : Fin 128) : reduces_S128x128x128_S128x128.lift (ix2 r f) g = ix3 r f g :=
  funext fun c => Fin.ext (by match c with | ⟨0, _⟩ => rfl | ⟨1, _⟩ => rfl | ⟨2, _⟩ => rfl)

/-- The sum over the last axis, from the zero word. -/
abbrev lastSum (v : FVec Ideal S128x128x128 .f32) : FVec Ideal S128x128 .f32 :=
  multiReduction .add [2] S128x128 v 0x00000000#32 reduces_S128x128x128_S128x128 (.inl rfl) rfl

/-- The maximum over the last axis, from the word of minus infinity. -/
abbrev lastMax (v : FVec Ideal S128x128x128 .f32) : FVec Ideal S128x128 .f32 :=
  multiReduction .maximumf [2] S128x128 v 0xFF800000#32 reduces_S128x128x128_S128x128 (.inl rfl) rfl

theorem lastSum_at (v : FVec Ideal S128x128x128 .f32) (r f : Fin 128) : lastSum v (ix2 r f) = ∑ g : Fin 128, v (ix3 r f g) :=
  (Ideal.multiReduction_add_single v 0x00000000#32 reduces_S128x128x128_S128x128 (.inl rfl) rfl (ix2 r f)).trans
    (Finset.sum_congr rfl fun g _ => congrArg v (lift_at r f g))

theorem lastMax_at (v : FVec Ideal S128x128x128 .f32) (r f : Fin 128) :
    lastMax v (ix2 r f) = (Finset.univ : Finset (Fin 128)).fold max Cert.Spec.negInf (fun g => v (ix3 r f g)) :=
  (Ideal.multiReduction_maximumf_single v 0xFF800000#32 reduces_S128x128x128_S128x128 (.inl rfl) rfl (ix2 r f)).trans
    (congrArg (fun φ : Fin 128 → EReal => (Finset.univ : Finset (Fin 128)).fold max Cert.Spec.negInf φ)
      (funext fun g => congrArg v (lift_at r f g)))

/-! ## One interaction layer on a block -/

/-- The scalar a [1,1,1] weight block holds. -/
abbrev wt (q : Vec Ideal S1x1x1 .f32) : EReal := extractAt ![0, 0, 0] q inpos_S1x1x1_p0_0_0

/-- Row `r` of a block, as a vector of 128 fields. -/
abbrev row (a : Vec Ideal S128x128 .f32) (r : Fin 128) : Fin 128 → EReal := fun f => a (ix2 r f)

/-- A block with every entry multiplied by one scalar. -/
abbrev scale (a : Vec Ideal S128x128 .f32) (w : EReal) : FVec Ideal S128x128 .f32 := mulf a (broadcast S128x128 w)

/-- The scores of a block: entry (r,f,g) is the query at (r,f) times the key at (r,g). -/
abbrev scoresV (a : Vec Ideal S128x128 .f32) (wq wk : EReal) : FVec Ideal S128x128x128 .f32 :=
  mulf (spreadLast (scale a wq)) (spreadMid (scale a wk))

/-- The shifted exponentials of the scores. -/
abbrev expoV (a : Vec Ideal S128x128 .f32) (wq wk : EReal) : FVec Ideal S128x128x128 .f32 :=
  exp (subf (scoresV a wq wk) (spreadLast (lastMax (scoresV a wq wk))))

/-- The softmax of the scores along the last axis. -/
abbrev probV (a : Vec Ideal S128x128 .f32) (wq wk : EReal) : FVec Ideal S128x128x128 .f32 :=
  divf (expoV a wq wk) (spreadLast (lastSum (expoV a wq wk)))

/-- The softmax-weighted sum of the values. -/
abbrev attnV (a : Vec Ideal S128x128 .f32) (wq wk wv : EReal) : FVec Ideal S128x128 .f32 :=
  lastSum (mulf (probV a wq wk) (spreadMid (scale a wv)))

theorem scoresV_at (a : Vec Ideal S128x128 .f32) (wq wk : EReal) (r f g : Fin 128) :
    scoresV a wq wk (ix3 r f g) = Cert.Spec.score wq wk (row a r) f g :=
  congrArg₂ (· * ·) (spreadLast_at (scale a wq) r f g) (spreadMid_at (scale a wk) r f g)

theorem expoV_at (a : Vec Ideal S128x128 .f32) (wq wk : EReal) (r f g : Fin 128) :
    expoV a wq wk (ix3 r f g) = Cert.Spec.expo wq wk (row a r) f g := by
  have hm : spreadLast (lastMax (scoresV a wq wk)) (ix3 r f g) = Cert.Spec.rowMax wq wk (row a r) f :=
    ((spreadLast_at _ r f g).trans (lastMax_at _ r f)).trans
      (congrArg (fun φ : Fin 128 → EReal => (Finset.univ : Finset (Fin 128)).fold max Cert.Spec.negInf φ)
        (funext fun g' => scoresV_at a wq wk r f g'))
  exact congrArg Ideal.exp (congrArg₂ (· - ·) (scoresV_at a wq wk r f g) hm)

theorem probV_at (a : Vec Ideal S128x128 .f32) (wq wk : EReal) (r f g : Fin 128) :
    probV a wq wk (ix3 r f g) = Ideal.div (Cert.Spec.expo wq wk (row a r) f g) (Cert.Spec.denom wq wk (row a r) f) := by
  have hd : spreadLast (lastSum (expoV a wq wk)) (ix3 r f g) = Cert.Spec.denom wq wk (row a r) f :=
    ((spreadLast_at _ r f g).trans (lastSum_at _ r f)).trans (Finset.sum_congr rfl fun g' _ => expoV_at a wq wk r f g')
  exact congrArg₂ Ideal.div (expoV_at a wq wk r f g) hd

theorem attnV_at (a : Vec Ideal S128x128 .f32) (wq wk wv : EReal) (r f : Fin 128) :
    attnV a wq wk wv (ix2 r f)
      = ∑ g : Fin 128, Ideal.div (Cert.Spec.expo wq wk (row a r) f g) (Cert.Spec.denom wq wk (row a r) f) * (a (ix2 r g) * wv) :=
  (lastSum_at _ r f).trans (Finset.sum_congr rfl fun g _ =>
    congrArg₂ (· * ·) (probV_at a wq wk r f g) (spreadMid_at (scale a wv) r f g))

/-- The payload that the body sums over the last axis is the weighted sum above. -/
theorem pay4_eq (a : Vec Ideal S128x128 .f32) (q k v : Vec Ideal S1x1x1 .f32) :
    k0_pay4 a q k v = attnV a (wt q) (wt k) (wt v) := rfl

/-- The new contents of the carried block at (r,f): one interaction layer of row `r` of the old contents. -/
theorem layer_at (a : Vec Ideal S128x128 .f32) (q k v w : Vec Ideal S1x1x1 .f32) (r f : Fin 128) :
    k0_pay1 (k0_pay4 a q k v) (k0_pay5 a w) (ix2 r f)
      = Cert.Spec.layer (wt q) (wt k) (wt v) (wt w) (row a r) f := by
  rw [pay4_eq]
  unfold k0_pay1
  simp only [shapeCast_self]
  show max (attnV a (wt q) (wt k) (wt v) (ix2 r f) + a (ix2 r f) * wt w) (Ideal.ofBits .f32 0x00000000#32) = _
  rw [attnV_at, Ideal.ofBits_zero_f32]
  rfl

end Cert.KernelIdeal.Pay

end
-- ==== Proof.KHead.lean ====
/-
  The head of the kernel body, read at an index (on the extended reals).

  A matrix product into a zero accumulator is, entry by entry, the sum over the contracted axis of the products of the
  operands' entries (a change of float format is the identity on the extended reals). A bias of length `n`, cast to one
  row and broadcast over the 128 rows of the block, reads its entry `j` at every (r, j). Composed, the head's output at
  (r, 0) is `Cert.Spec.head` of row `r` of the block it is applied to.
-/
import proofs.«101517_j51651276702509_2_alg».proof.Proof.KPay

noncomputable section

open scoped BigOperators

namespace Cert.KernelIdeal.Pay

open Cert.KernelIdeal Cert.KernelIdeal.Gen Idealize.ShloMosaic Idealize.ShloMosaic.ValueIdx

theorem mm1_at_l0 (i : S128x256.Idx) (q : dot_S128x128_S128x256_S128x256_1_0_0_1_n_n.contr.Idx) : (dot_S128x128_S128x256_S128x256_1_0_0_1_n_n.lhsIdx i q 0).val = (i 0).val := by
  unfold DotDims.lhsIdx
  rw [dif_neg (show ¬(0 : Fin S128x128.rank) ∈ dot_S128x128_S128x256_S128x256_1_0_0_1_n_n.lhsBatch by decide), dif_pos (show (0 : Fin S128x128.rank) ∈ dot_S128x128_S128x256_S128x256_1_0_0_1_n_n.lhsNonContracting by decide)]
  rfl
theorem mm1_at_l1 (i : S128x256.Idx) (q : dot_S128x128_S128x256_S128x256_1_0_0_1_n_n.contr.Idx) : (dot_S128x128_S128x256_S128x256_1_0_0_1_n_n.lhsIdx i q 1).val = (q ⟨0, by decide⟩).val :=
  dot_S128x128_S128x256_S128x256_1_0_0_1_n_n.lhsIdx_val_of_single rfl i q
theorem mm1_at_r0 (i : S128x256.Idx) (q : dot_S128x128_S128x256_S128x256_1_0_0_1_n_n.contr.Idx) : (dot_S128x128_S128x256_S128x256_1_0_0_1_n_n.rhsIdx i q 0).val = (q ⟨0, by decide⟩).val :=
  dot_S128x128_S128x256_S128x256_1_0_0_1_n_n.rhsIdx_val_of_single rfl i q
theorem mm1_at_r1 (i : S128x256.Idx) (q : dot_S128x128_S128x256_S128x256_1_0_0_1_n_n.contr.Idx) : (dot_S128x128_S128x256_S128x256_1_0_0_1_n_n.rhsIdx i q 1).val = (i 1).val := by
  unfold DotDims.rhsIdx
  rw [dif_neg (show ¬(1 : Fin S128x256.rank) ∈ dot_S128x128_S128x256_S128x256_1_0_0_1_n_n.rhsBatch by decide), dif_pos (show (1 : Fin S128x256.rank) ∈ dot_S128x128_S128x256_S128x256_1_0_0_1_n_n.rhsNonContracting by decide)]
  rfl

/-- [128,128] × [128,256] into zero: entry (r,j) is the sum over k of l(r,k)·r(k,j). -/
theorem mm1_at (l : FVec Ideal S128x128 .bf16) (rr : FVec Ideal S128x256 .bf16) (r : Fin 128) (j : Fin 256) :
    matmul dot_S128x128_S128x256_S128x256_1_0_0_1_n_n none l rr (constant S128x256 .f32 0x00000000#32) (ix2 r j) = ∑ k : Fin 128, l (ix2 r k) * rr (ix2 k j) := by
  simp only [matmul]
  rw [Ideal.matmul_constant_zero_apply, ← Equiv.sum_comp (contrEquiv1 dot_S128x128_S128x256_S128x256_1_0_0_1_n_n 128 rfl rfl).symm]
  refine Finset.sum_congr rfl fun k _ => ?_
  have hk := contrEquiv1_symm_val dot_S128x128_S128x256_S128x256_1_0_0_1_n_n 128 rfl rfl k
  have el : dot_S128x128_S128x256_S128x256_1_0_0_1_n_n.lhsIdx (ix2 r j) ((contrEquiv1 dot_S128x128_S128x256_S128x256_1_0_0_1_n_n 128 rfl rfl).symm k) = ix2 r k := funext fun a => Fin.ext (by
    match a with
    | ⟨0, _⟩ => exact mm1_at_l0 _ _
    | ⟨1, _⟩ => exact (mm1_at_l1 _ _).trans hk)
  have er : dot_S128x128_S128x256_S128x256_1_0_0_1_n_n.rhsIdx (ix2 r j) ((contrEquiv1 dot_S128x128_S128x256_S128x256_1_0_0_1_n_n 128 rfl rfl).symm k) = ix2 k j := funext fun a => Fin.ext (by
    match a with
    | ⟨0, _⟩ => exact (mm1_at_r0 _ _).trans hk
    | ⟨1, _⟩ => exact mm1_at_r1 _ _)
  rw [el, er]

theorem mm2_at_l0 (i : S128x128.Idx) (q : dot_S128x256_S256x128_S128x128_1_0_0_1_n_n.contr.Idx) : (dot_S128x256_S256x128_S128x128_1_0_0_1_n_n.lhsIdx i q 0).val = (i 0).val := by
  unfold DotDims.lhsIdx
  rw [dif_neg (show ¬(0 : Fin S128x256.rank) ∈ dot_S128x256_S256x128_S128x128_1_0_0_1_n_n.lhsBatch by decide), dif_pos (show (0 : Fin S128x256.rank) ∈ dot_S128x256_S256x128_S128x128_1_0_0_1_n_n.lhsNonContracting by decide)]
  rfl
theorem mm2_at_l1 (i : S128x128.Idx) (q : dot_S128x256_S256x128_S128x128_1_0_0_1_n_n.contr.Idx) : (dot_S128x256_S256x128_S128x128_1_0_0_1_n_n.lhsIdx i q 1).val = (q ⟨0, by decide⟩).val :=
  dot_S128x256_S256x128_S128x128_1_0_0_1_n_n.lhsIdx_val_of_single rfl i q
theorem mm2_at_r0 (i : S128x128.Idx) (q : dot_S128x256_S256x128_S128x128_1_0_0_1_n_n.contr.Idx) : (dot_S128x256_S256x128_S128x128_1_0_0_1_n_n.rhsIdx i q 0).val = (q ⟨0, by decide⟩).val :=
  dot_S128x256_S256x128_S128x128_1_0_0_1_n_n.rhsIdx_val_of_single rfl i q
theorem mm2_at_r1 (i : S128x128.Idx) (q : dot_S128x256_S256x128_S128x128_1_0_0_1_n_n.contr.Idx) : (dot_S128x256_S256x128_S128x128_1_0_0_1_n_n.rhsIdx i q 1).val = (i 1).val := by
  unfold DotDims.rhsIdx
  rw [dif_neg (show ¬(1 : Fin S256x128.rank) ∈ dot_S128x256_S256x128_S128x128_1_0_0_1_n_n.rhsBatch by decide), dif_pos (show (1 : Fin S256x128.rank) ∈ dot_S128x256_S256x128_S128x128_1_0_0_1_n_n.rhsNonContracting by decide)]
  rfl

/-- [128,256] × [256,128] into zero: entry (r,j) is the sum over k of l(r,k)·r(k,j). -/
theorem mm2_at (l : FVec Ideal S128x256 .bf16) (rr : FVec Ideal S256x128 .bf16) (r : Fin 128) (j : Fin 128) :
    matmul dot_S128x256_S256x128_S128x128_1_0_0_1_n_n none l rr (constant S128x128 .f32 0x00000000#32) (ix2 r j) = ∑ k : Fin 256, l (ix2 r k) * rr (ix2 k j) := by
  simp only [matmul]
  rw [Ideal.matmul_constant_zero_apply, ← Equiv.sum_comp (contrEquiv1 dot_S128x256_S256x128_S128x128_1_0_0_1_n_n 256 rfl rfl).symm]
  refine Finset.sum_congr rfl fun k _ => ?_
  have hk := contrEquiv1_symm_val dot_S128x256_S256x128_S128x128_1_0_0_1_n_n 256 rfl rfl k
  have el : dot_S128x256_S256x128_S128x128_1_0_0_1_n_n.lhsIdx (ix2 r j) ((contrEquiv1 dot_S128x256_S256x128_S128x128_1_0_0_1_n_n 256 rfl rfl).symm k) = ix2 r k := funext fun a => Fin.ext (by
    match a with
    | ⟨0, _⟩ => exact mm2_at_l0 _ _
    | ⟨1, _⟩ => exact (mm2_at_l1 _ _).trans hk)
  have er : dot_S128x256_S256x128_S128x128_1_0_0_1_n_n.rhsIdx (ix2 r j) ((contrEquiv1 dot_S128x256_S256x128_S128x128_1_0_0_1_n_n 256 rfl rfl).symm k) = ix2 k j := funext fun a => Fin.ext (by
    match a with
    | ⟨0, _⟩ => exact (mm2_at_r0 _ _).trans hk
    | ⟨1, _⟩ => exact mm2_at_r1 _ _)
  rw [el, er]

theorem mm3_at_l0 (i : S128x1.Idx) (q : dot_S128x128_S128x1_S128x1_1_0_0_1_n_n.contr.Idx) : (dot_S128x128_S128x1_S128x1_1_0_0_1_n_n.lhsIdx i q 0).val = (i 0).val := by
  unfold DotDims.lhsIdx
  rw [dif_neg (show ¬(0 : Fin S128x128.rank) ∈ dot_S128x128_S128x1_S128x1_1_0_0_1_n_n.lhsBatch by decide), dif_pos (show (0 : Fin S128x128.rank) ∈ dot_S128x128_S128x1_S128x1_1_0_0_1_n_n.lhsNonContracting by decide)]
  rfl
theorem mm3_at_l1 (i : S128x1.Idx) (q : dot_S128x128_S128x1_S128x1_1_0_0_1_n_n.contr.Idx) : (dot_S128x128_S128x1_S128x1_1_0_0_1_n_n.lhsIdx i q 1).val = (q ⟨0, by decide⟩).val :=
  dot_S128x128_S128x1_S128x1_1_0_0_1_n_n.lhsIdx_val_of_single rfl i q
theorem mm3_at_r0 (i : S128x1.Idx) (q : dot_S128x128_S128x1_S128x1_1_0_0_1_n_n.contr.Idx) : (dot_S128x128_S128x1_S128x1_1_0_0_1_n_n.rhsIdx i q 0).val = (q ⟨0, by decide⟩).val :=
  dot_S128x128_S128x1_S128x1_1_0_0_1_n_n.rhsIdx_val_of_single rfl i q
theorem mm3_at_r1 (i : S128x1.Idx) (q : dot_S128x128_S128x1_S128x1_1_0_0_1_n_n.contr.Idx) : (dot_S128x128_S128x1_S128x1_1_0_0_1_n_n.rhsIdx i q 1).val = (i 1).val := by
  unfold DotDims.rhsIdx
  rw [dif_neg (show ¬(1 : Fin S128x1.rank) ∈ dot_S128x128_S128x1_S128x1_1_0_0_1_n_n.rhsBatch by decide), dif_pos (show (1 : Fin S128x1.rank) ∈ dot_S128x128_S128x1_S128x1_1_0_0_1_n_n.rhsNonContracting by decide)]
  rfl

/-- [128,128] × [128,1] into zero: entry (r,j) is the sum over k of l(r,k)·r(k,j). -/
theorem mm3_at (l : FVec Ideal S128x128 .bf16) (rr : FVec Ideal S128x1 .bf16) (r : Fin 128) (j : Fin 1) :
    matmul dot_S128x128_S128x1_S128x1_1_0_0_1_n_n none l rr (constant S128x1 .f32 0x00000000#32) (ix2 r j) = ∑ k : Fin 128, l (ix2 r k) * rr (ix2 k j) := by
  simp only [matmul]
  rw [Ideal.matmul_constant_zero_apply, ← Equiv.sum_comp (contrEquiv1 dot_S128x128_S128x1_S128x1_1_0_0_1_n_n 128 rfl rfl).symm]
  refine Finset.sum_congr rfl fun k _ => ?_
  have hk := contrEquiv1_symm_val dot_S128x128_S128x1_S128x1_1_0_0_1_n_n 128 rfl rfl k
  have el : dot_S128x128_S128x1_S128x1_1_0_0_1_n_n.lhsIdx (ix2 r j) ((contrEquiv1 dot_S128x128_S128x1_S128x1_1_0_0_1_n_n 128 rfl rfl).symm k) = ix2 r k := funext fun a => Fin.ext (by
    match a with
    | ⟨0, _⟩ => exact mm3_at_l0 _ _
    | ⟨1, _⟩ => exact (mm3_at_l1 _ _).trans hk)
  have er : dot_S128x128_S128x1_S128x1_1_0_0_1_n_n.rhsIdx (ix2 r j) ((contrEquiv1 dot_S128x128_S128x1_S128x1_1_0_0_1_n_n 128 rfl rfl).symm k) = ix2 k j := funext fun a => Fin.ext (by
    match a with
    | ⟨0, _⟩ => exact (mm3_at_r0 _ _).trans hk
    | ⟨1, _⟩ => exact mm3_at_r1 _ _)
  rw [el, er]

/-- A bias of length 256 as one row over the block's 128 rows: entry (r,j) is the bias at j. -/
theorem bias256_at {α : Type} (b : S256.Idx → α) (r : Fin 128) (j : Fin 256) :
    broadcastTo S128x256 (shapeCast S1x256 b shapeCasts_S256_S1x256) broadcasts_S1x256_S128x256 (ix2 r j) = b (ix1 j) :=
  (broadcastTo_1b_ab_apply _ broadcasts_S1x256_S128x256 r j).trans (shapeCast_a_1a_apply b shapeCasts_S256_S1x256 (0 : Fin 1) j)

/-- A bias of length 128 as one row over the block's 128 rows: entry (r,j) is the bias at j. -/
theorem bias128_at {α : Type} (b : S128.Idx → α) (r : Fin 128) (j : Fin 128) :
    broadcastTo S128x128 (shapeCast S1x128 b shapeCasts_S128_S1x128) broadcasts_S1x128_S128x128 (ix2 r j) = b (ix1 j) :=
  (broadcastTo_1b_ab_apply _ broadcasts_S1x128_S128x128 r j).trans (shapeCast_a_1a_apply b shapeCasts_S128_S1x128 (0 : Fin 1) j)

/-- A block in the narrower float format: the same extended reals. -/
abbrev asBf {s : Shape} (x : FVec Ideal s .f32) : FVec Ideal s .bf16 := truncf .bf16 x bitsLt_bf16_f32

abbrev mmV1 (h : Vec Ideal S128x128 .f32) (W1 : Vec Ideal S128x256 .f32) : FVec Ideal S128x256 .f32 :=
  matmul dot_S128x128_S128x256_S128x256_1_0_0_1_n_n none (asBf h) (asBf W1) (constant S128x256 .f32 0x00000000#32)
abbrev mmV2 (g : FVec Ideal S128x256 .f32) (W2 : Vec Ideal S256x128 .f32) : FVec Ideal S128x128 .f32 :=
  matmul dot_S128x256_S256x128_S128x128_1_0_0_1_n_n none (asBf g) (asBf W2) (constant S128x128 .f32 0x00000000#32)
abbrev mmV3 (g : FVec Ideal S128x128 .f32) (Wf : Vec Ideal S128x1 .f32) : FVec Ideal S128x1 .f32 :=
  matmul dot_S128x128_S128x1_S128x1_1_0_0_1_n_n none (asBf g) (asBf Wf) (constant S128x1 .f32 0x00000000#32)
abbrev biasV256 (b : Vec Ideal S256 .f32) : FVec Ideal S128x256 .f32 :=
  broadcastTo S128x256 (shapeCast S1x256 b shapeCasts_S256_S1x256) broadcasts_S1x256_S128x256
abbrev biasV128 (b : Vec Ideal S128 .f32) : FVec Ideal S128x128 .f32 :=
  broadcastTo S128x128 (shapeCast S1x128 b shapeCasts_S128_S1x128) broadcasts_S1x128_S128x128

/-- The first dense layer on a block. -/
abbrev dense1V (h : Vec Ideal S128x128 .f32) (W1 : Vec Ideal S128x256 .f32) (b1 : Vec Ideal S256 .f32) : FVec Ideal S128x256 .f32 :=
  maximumf (addf (mmV1 h W1) (biasV256 b1)) (broadcast S128x256 (Scalar.ofBits .f32 0x00000000#32))

/-- The second dense layer on a block. -/
abbrev dense2V (g : FVec Ideal S128x256 .f32) (W2 : Vec Ideal S256x128 .f32) (b2 : Vec Ideal S128 .f32) : FVec Ideal S128x128 .f32 :=
  maximumf (addf (mmV2 g W2) (biasV128 b2)) (broadcast S128x128 (Scalar.ofBits .f32 0x00000000#32))

theorem dense1V_at (h : Vec Ideal S128x128 .f32) (W1 : Vec Ideal S128x256 .f32) (b1 : Vec Ideal S256 .f32) (r : Fin 128) (j : Fin 256) :
    dense1V h W1 b1 (ix2 r j) = Cert.Spec.dense1 W1 b1 (row h r) j := by
  have e1 : mmV1 h W1 (ix2 r j) = ∑ k : Fin 128, h (ix2 r k) * W1 (ix2 k j) := mm1_at (asBf h) (asBf W1) r j
  have e2 : biasV256 b1 (ix2 r j) = b1 (ix1 j) := bias256_at b1 r j
  show max (mmV1 h W1 (ix2 r j) + biasV256 b1 (ix2 r j)) (Ideal.ofBits .f32 0x00000000#32) = _
  rw [e1, e2, Ideal.ofBits_zero_f32]
  rfl

theorem dense2V_at (g : FVec Ideal S128x256 .f32) (W2 : Vec Ideal S256x128 .f32) (b2 : Vec Ideal S128 .f32) (r : Fin 128) (k : Fin 128) :
    dense2V g W2 b2 (ix2 r k) = Cert.Spec.dense2 W2 b2 (fun j => g (ix2 r j)) k := by
  have e1 : mmV2 g W2 (ix2 r k) = ∑ j : Fin 256, g (ix2 r j) * W2 (ix2 j k) := mm2_at (asBf g) (asBf W2) r k
  have e2 : biasV128 b2 (ix2 r k) = b2 (ix1 k) := bias128_at b2 r k
  show max (mmV2 g W2 (ix2 r k) + biasV128 b2 (ix2 r k)) (Ideal.ofBits .f32 0x00000000#32) = _
  rw [e1, e2, Ideal.ofBits_zero_f32]
  rfl

/-- The head's payload is the last product applied to the two dense layers. -/
theorem pay2_eq (h : Vec Ideal S128x128 .f32) (W1 : Vec Ideal S128x256 .f32) (b1 : Vec Ideal S256 .f32)
    (W2 : Vec Ideal S256x128 .f32) (b2 : Vec Ideal S128 .f32) (Wf : Vec Ideal S128x1 .f32) :
    k0_pay2 h W1 b1 W2 b2 Wf = mmV3 (dense2V (dense1V h W1 b1) W2 b2) Wf := rfl

/-- The head's output at (r,0): the head of row `r` of the block. -/
theorem head_at (h : Vec Ideal S128x128 .f32) (W1 : Vec Ideal S128x256 .f32) (b1 : Vec Ideal S256 .f32)
    (W2 : Vec Ideal S256x128 .f32) (b2 : Vec Ideal S128 .f32) (Wf : Vec Ideal S128x1 .f32) (r : Fin 128) :
    k0_pay2 h W1 b1 W2 b2 Wf (ix2 r (0 : Fin 1)) = Cert.Spec.head W1 b1 W2 b2 Wf (row h r) := by
  have e3 : mmV3 (dense2V (dense1V h W1 b1) W2 b2) Wf (ix2 r (0 : Fin 1))
      = ∑ k : Fin 128, dense2V (dense1V h W1 b1) W2 b2 (ix2 r k) * Wf (ix2 k (0 : Fin 1)) :=
    mm3_at (asBf (dense2V (dense1V h W1 b1) W2 b2)) (asBf Wf) r (0 : Fin 1)
  rw [pay2_eq, e3]
  unfold Cert.Spec.head Cert.Spec.proj
  refine Finset.sum_congr rfl fun k _ => congrArg (· * Wf (ix2 k (0 : Fin 1))) ?_
  rw [dense2V_at]
  exact congrArg (fun φ : Fin 256 → EReal => Cert.Spec.dense2 W2 b2 φ k) (funext fun j => dense1V_at h W1 b1 r j)

end Cert.KernelIdeal.Pay

end
-- ==== Proof.KBlocks.lean ====
/-
  The kernel's windows, block by block.

  The grid has 96 points; point `t` works on batch tile `t / 3` (128 rows of the 4096) in layer `t % 3`. The four weight
  windows hold one entry, that layer's weight; the input window holds the tile's 128 rows; the head's five windows
  hold their whole arrays; the output window holds the tile's 128 results and is written back at the last layer only.
  Every index of the output array lies in the block of exactly such a point.
-/
import proofs.«101517_j51651276702509_2_alg».proof.Proof.Gen.KernelIdeal.Value
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F] (m : (ℓ : Loc nD τ sig) → Buf (Elt F) ℓ)

/-- The batch tile of point `t`. -/
def tileOf (t : Fin cfg0.N) : Fin 32 := ⟨t.val / 3, by have := t.isLt; have h : cfg0.N = 96 := N_0; omega⟩
/-- The layer of point `t`. -/
def layerOf (t : Fin cfg0.N) : Fin 3 := ⟨t.val % 3, Nat.mod_lt _ (by decide)⟩
/-- Row `r` of tile `p` is row `128 p + r` of the batch. -/
def rowOf (p : Fin 32) (r : Fin 128) : Fin 4096 := ⟨128 * p.val + r.val, by have := p.isLt; have := r.isLt; omega⟩

/-! ## The index maps, decided over the grid -/

/-- Window 0's block index at point `t`: the layer of `t` on the first axis, 0 on the others. -/
theorem idx_w0 : ∀ t : Fin cfg0.N, win0_0.index t (0 : Fin 3) = t.val % 3 ∧ win0_0.index t (1 : Fin 3) = 0
    ∧ win0_0.index t (2 : Fin 3) = 0 :=
  (by decide +kernel : ∀ t : Fin grid0.N, _)

/-- Window 1's block index at point `t`: the layer of `t` on the first axis, 0 on the others. -/
theorem idx_w1 : ∀ t : Fin cfg0.N, win0_1.index t (0 : Fin 3) = t.val % 3 ∧ win0_1.index t (1 : Fin 3) = 0
    ∧ win0_1.index t (2 : Fin 3) = 0 :=
  (by decide +kernel : ∀ t : Fin grid0.N, _)

/-- Window 2's block index at point `t`: the layer of `t` on the first axis, 0 on the others. -/
theorem idx_w2 : ∀ t : Fin cfg0.N, win0_2.index t (0 : Fin 3) = t.val % 3 ∧ win0_2.index t (1 : Fin 3) = 0
    ∧ win0_2.index t (2 : Fin 3) = 0 :=
  (by decide +kernel : ∀ t : Fin grid0.N, _)

/-- Window 3's block index at point `t`: the layer of `t` on the first axis, 0 on the others. -/
theorem idx_w3 : ∀ t : Fin cfg0.N, win0_3.index t (0 : Fin 3) = t.val % 3 ∧ win0_3.index t (1 : Fin 3) = 0
    ∧ win0_3.index t (2 : Fin 3) = 0 :=
  (by decide +kernel : ∀ t : Fin grid0.N, _)

/-- The input window's block index at point `t`: the tile of `t` on the rows, 0 on the fields. -/
theorem idx_w4 : ∀ t : Fin cfg0.N, win0_4.index t (0 : Fin 2) = t.val / 3 ∧ win0_4.index t (1 : Fin 2) = 0 :=
  (by decide +kernel : ∀ t : Fin grid0.N, _)

/-- Window 5 stages its whole array: its block index is 0 on both axes at every point. -/
theorem idx_w5 : ∀ t : Fin cfg0.N, win0_5.index t (0 : Fin 2) = 0 ∧ win0_5.index t (1 : Fin 2) = 0 :=
  (by decide +kernel : ∀ t : Fin grid0.N, _)

/-- Window 6 stages its whole array: its block index is 0 at every point. -/
theorem idx_w6 : ∀ t : Fin cfg0.N, win0_6.index t (0 : Fin 1) = 0 :=
  (by decide +kernel : ∀ t : Fin grid0.N, _)

/-- Window 7 stages its whole array: its block index is 0 on both axes at every point. -/
theorem idx_w7 : ∀ t : Fin cfg0.N, win0_7.index t (0 : Fin 2) = 0 ∧ win0_7.index t (1 : Fin 2) = 0 :=
  (by decide +kernel : ∀ t : Fin grid0.N, _)

/-- Window 8 stages its whole array: its block index is 0 at every point. -/
theorem idx_w8 : ∀ t : Fin cfg0.N, win0_8.index t (0 : Fin 1) = 0 :=
  (by decide +kernel : ∀ t : Fin grid0.N, _)

/-- Window 9 stages its whole array: its block index is 0 on both axes at every point. -/
theorem idx_w9 : ∀ t : Fin cfg0.N, win0_9.index t (0 : Fin 2) = 0 ∧ win0_9.index t (1 : Fin 2) = 0 :=
  (by decide +kernel : ∀ t : Fin grid0.N, _)

/-- The output window's block index at point `t`: the tile of `t` on the rows, 0 on the one column. -/
theorem idx_w10 : ∀ t : Fin cfg0.N, win0_10.index t (0 : Fin 2) = t.val / 3 ∧ win0_10.index t (1 : Fin 2) = 0 :=
  (by decide +kernel : ∀ t : Fin grid0.N, _)

/-! ## The input blocks -/

/-- The input window's block at point `t` holds, at (r, f), the input at row `r` of `t`'s tile and field `f`. -/
theorem x_block (c : Dev nD) (t : Fin cfg0.N) (r f : Fin 128) :
    (iblk m c 4 t : Vec F S128x128 .f32) (ix2 r f) = V m c main_arg0 (ix2 (rowOf (tileOf t) r) f) := by
  obtain ⟨e0, e1⟩ := idx_w4 t
  unfold iblk
  rw [View.read_apply]
  show V m c main_arg0 (((cfg0.win 4).blk t).view.emb (ix2 r f)) = V m c main_arg0 _
  congr 1
  funext a
  apply Fin.ext
  match a with
  | ⟨0, _⟩ => show win0_4.index t (0 : Fin 2) * 128 + 1 * r.val = 128 * (t.val / 3) + r.val; rw [e0]; omega
  | ⟨1, _⟩ => show win0_4.index t (1 : Fin 2) * 128 + 1 * f.val = f.val; rw [e1]; omega

/-- Window 0's one-entry block at point `t` is entry (layer of `t`, 0, 0) of its weight array. -/
theorem w_block0 (c : Dev nD) (t : Fin cfg0.N) :
    (iblk m c 0 t : Vec F S1x1x1 .f32) (ix3 (0 : Fin 1) (0 : Fin 1) (0 : Fin 1))
      = V m c main_arg1 (ix3 (layerOf t) (0 : Fin 1) (0 : Fin 1)) := by
  obtain ⟨e0, e1, e2⟩ := idx_w0 t
  unfold iblk
  rw [View.read_apply]
  show V m c main_arg1 (((cfg0.win 0).blk t).view.emb (ix3 (0 : Fin 1) (0 : Fin 1) (0 : Fin 1))) = V m c main_arg1 _
  congr 1
  funext a
  apply Fin.ext
  match a with
  | ⟨0, _⟩ => show win0_0.index t (0 : Fin 3) * 1 + 1 * (0 : Fin 1).val = t.val % 3; rw [e0]; simp
  | ⟨1, _⟩ => show win0_0.index t (1 : Fin 3) * 1 + 1 * (0 : Fin 1).val = (0 : Fin 1).val; omega
  | ⟨2, _⟩ => show win0_0.index t (2 : Fin 3) * 1 + 1 * (0 : Fin 1).val = (0 : Fin 1).val; omega

/-- Window 1's one-entry block at point `t` is entry (layer of `t`, 0, 0) of its weight array. -/
theorem w_block1 (c : Dev nD) (t : Fin cfg0.N) :
    (iblk m c 1 t : Vec F S1x1x1 .f32) (ix3 (0 : Fin 1) (0 : Fin 1) (0 : Fin 1))
      = V m c main_arg2 (ix3 (layerOf t) (0 : Fin 1) (0 : Fin 1)) := by
  obtain ⟨e0, e1, e2⟩ := idx_w1 t
  unfold iblk
  rw [View.read_apply]
  show V m c main_arg2 (((cfg0.win 1).blk t).view.emb (ix3 (0 : Fin 1) (0 : Fin 1) (0 : Fin 1))) = V m c main_arg2 _
  congr 1
  funext a
  apply Fin.ext
  match a with
  | ⟨0, _⟩ => show win0_1.index t (0 : Fin 3) * 1 + 1 * (0 : Fin 1).val = t.val % 3; rw [e0]; simp
  | ⟨1, _⟩ => show win0_1.index t (1 : Fin 3) * 1 + 1 * (0 : Fin 1).val = (0 : Fin 1).val; omega
  | ⟨2, _⟩ => show win0_1.index t (2 : Fin 3) * 1 + 1 * (0 : Fin 1).val = (0 : Fin 1).val; omega

/-- Window 2's one-entry block at point `t` is entry (layer of `t`, 0, 0) of its weight array. -/
theorem w_block2 (c : Dev nD) (t : Fin cfg0.N) :
    (iblk m c 2 t : Vec F S1x1x1 .f32) (ix3 (0 : Fin 1) (0 : Fin 1) (0 : Fin 1))
      = V m c main_arg3 (ix3 (layerOf t) (0 : Fin 1) (0 : Fin 1)) := by
  obtain ⟨e0, e1, e2⟩ := idx_w2 t
  unfold iblk
  rw [View.read_apply]
  show V m c main_arg3 (((cfg0.win 2).blk t).view.emb (ix3 (0 : Fin 1) (0 : Fin 1) (0 : Fin 1))) = V m c main_arg3 _
  congr 1
  funext a
  apply Fin.ext
  match a with
  | ⟨0, _⟩ => show win0_2.index t (0 : Fin 3) * 1 + 1 * (0 : Fin 1).val = t.val % 3; rw [e0]; simp
  | ⟨1, _⟩ => show win0_2.index t (1 : Fin 3) * 1 + 1 * (0 : Fin 1).val = (0 : Fin 1).val; omega
  | ⟨2, _⟩ => show win0_2.index t (2 : Fin 3) * 1 + 1 * (0 : Fin 1).val = (0 : Fin 1).val; omega

/-- Window 3's one-entry block at point `t` is entry (layer of `t`, 0, 0) of its weight array. -/
theorem w_block3 (c : Dev nD) (t : Fin cfg0.N) :
    (iblk m c 3 t : Vec F S1x1x1 .f32) (ix3 (0 : Fin 1) (0 : Fin 1) (0 : Fin 1))
      = V m c main_arg4 (ix3 (layerOf t) (0 : Fin 1) (0 : Fin 1)) := by
  obtain ⟨e0, e1, e2⟩ := idx_w3 t
  unfold iblk
  rw [View.read_apply]
  show V m c main_arg4 (((cfg0.win 3).blk t).view.emb (ix3 (0 : Fin 1) (0 : Fin 1) (0 : Fin 1))) = V m c main_arg4 _
  congr 1
  funext a
  apply Fin.ext
  match a with
  | ⟨0, _⟩ => show win0_3.index t (0 : Fin 3) * 1 + 1 * (0 : Fin 1).val = t.val % 3; rw [e0]; simp
  | ⟨1, _⟩ => show win0_3.index t (1 : Fin 3) * 1 + 1 * (0 : Fin 1).val = (0 : Fin 1).val; omega
  | ⟨2, _⟩ => show win0_3.index t (2 : Fin 3) * 1 + 1 * (0 : Fin 1).val = (0 : Fin 1).val; omega

/-- Window 5's block at any point is its whole array. -/
theorem whole5 (c : Dev nD) (t : Fin cfg0.N) : (iblk m c 5 t : Vec F S128x256 .f32) = V m c main_arg5 := by
  obtain ⟨e0, e1⟩ := idx_w5 t
  funext j
  unfold iblk
  rw [View.read_apply]
  show V m c main_arg5 (((cfg0.win 5).blk t).view.emb j) = V m c main_arg5 j
  congr 1
  funext a
  apply Fin.ext
  match a with
  | ⟨0, _⟩ => show win0_5.index t (0 : Fin 2) * 128 + 1 * (j 0).val = (j 0).val; rw [e0]; omega
  | ⟨1, _⟩ => show win0_5.index t (1 : Fin 2) * 256 + 1 * (j 1).val = (j 1).val; rw [e1]; omega

/-- Window 6's block at any point is its whole array. -/
theorem whole6 (c : Dev nD) (t : Fin cfg0.N) : (iblk m c 6 t : Vec F S256 .f32) = V m c main_arg6 := by
  have e0 := idx_w6 t
  funext j
  unfold iblk
  rw [View.read_apply]
  show V m c main_arg6 (((cfg0.win 6).blk t).view.emb j) = V m c main_arg6 j
  congr 1
  funext a
  apply Fin.ext
  match a with
  | ⟨0, _⟩ => show win0_6.index t (0 : Fin 1) * 256 + 1 * (j 0).val = (j 0).val; rw [e0]; omega

/-- Window 7's block at any point is its whole array. -/
theorem whole7 (c : Dev nD) (t : Fin cfg0.N) : (iblk m c 7 t : Vec F S256x128 .f32) = V m c main_arg7 := by
  obtain ⟨e0, e1⟩ := idx_w7 t
  funext j
  unfold iblk
  rw [View.read_apply]
  show V m c main_arg7 (((cfg0.win 7).blk t).view.emb j) = V m c main_arg7 j
  congr 1
  funext a
  apply Fin.ext
  match a with
  | ⟨0, _⟩ => show win0_7.index t (0 : Fin 2) * 256 + 1 * (j 0).val = (j 0).val; rw [e0]; omega
  | ⟨1, _⟩ => show win0_7.index t (1 : Fin 2) * 128 + 1 * (j 1).val = (j 1).val; rw [e1]; omega

/-- Window 8's block at any point is its whole array. -/
theorem whole8 (c : Dev nD) (t : Fin cfg0.N) : (iblk m c 8 t : Vec F S128 .f32) = V m c main_arg8 := by
  have e0 := idx_w8 t
  funext j
  unfold iblk
  rw [View.read_apply]
  show V m c main_arg8 (((cfg0.win 8).blk t).view.emb j) = V m c main_arg8 j
  congr 1
  funext a
  apply Fin.ext
  match a with
  | ⟨0, _⟩ => show win0_8.index t (0 : Fin 1) * 128 + 1 * (j 0).val = (j 0).val; rw [e0]; omega

/-- Window 9's block at any point is its whole array. -/
theorem whole9 (c : Dev nD) (t : Fin cfg0.N) : (iblk m c 9 t : Vec F S128x1 .f32) = V m c main_arg9 := by
  obtain ⟨e0, e1⟩ := idx_w9 t
  funext j
  unfold iblk
  rw [View.read_apply]
  show V m c main_arg9 (((cfg0.win 9).blk t).view.emb j) = V m c main_arg9 j
  congr 1
  funext a
  apply Fin.ext
  match a with
  | ⟨0, _⟩ => show win0_9.index t (0 : Fin 2) * 128 + 1 * (j 0).val = (j 0).val; rw [e0]; omega
  | ⟨1, _⟩ => show win0_9.index t (1 : Fin 2) * 1 + 1 * (j 1).val = (j 1).val; rw [e1]; omega

/-- Extracting the one entry of a [1, 1, 1] vector reads it at (0, 0, 0). -/
theorem extract_eq (q : Vec F S1x1x1 .f32) :
    extractAt ![0, 0, 0] q inpos_S1x1x1_p0_0_0 = q (ix3 (0 : Fin 1) (0 : Fin 1) (0 : Fin 1)) := by
  unfold extractAt
  exact congrArg q (funext fun a => Fin.ext (by match a with | ⟨0, _⟩ => rfl | ⟨1, _⟩ => rfl | ⟨2, _⟩ => rfl))

/-! ## The output window -/

/-- The output window is written back exactly at the points of the last layer. -/
theorem flush10_iff (t : Fin cfg0.N) : (cfg0.win 10).flush t = true ↔ t.val % 3 = 2 := flush0_10 t

/-- Entry (r, 0) of the output block at point `t` is entry (row `r` of `t`'s tile, 0) of the output array. -/
theorem out_emb (t : Fin cfg0.N) (r : Fin 128) :
    (((cfg0.win 10).blk t).view.emb (ix2 r (0 : Fin 1)) : S4096x1.Idx) = ix2 (rowOf (tileOf t) r) (0 : Fin 1) := by
  obtain ⟨e0, e1⟩ := idx_w10 t
  funext a
  apply Fin.ext
  match a with
  | ⟨0, _⟩ => show win0_10.index t (0 : Fin 2) * 128 + 1 * r.val = 128 * (t.val / 3) + r.val; rw [e0]; omega
  | ⟨1, _⟩ => show win0_10.index t (1 : Fin 2) * 1 + 1 * (0 : Fin 1).val = (0 : Fin 1).val; omega

/-- An index of the output array is in point `t`'s block iff each coordinate is in the block's range on its axis. -/
theorem mem_blk10 (t : Fin cfg0.N) (i : S4096x1.Idx) :
    i ∈ ((cfg0.win 10).blk t).view.set ↔ ∀ a : Fin 2, win0_10.index t a * S128x1.size a ≤ (i a).val
      ∧ (i a).val < win0_10.index t a * S128x1.size a + S128x1.size a := by
  show i ∈ ((View.whole main_v0).slice (win0_10.rect t)).set ↔ _
  rw [View.set_slice_whole, Rect.mem_set_unit]
  exact Iff.rfl

/-- Every index of the output array is in the block of a point that writes back: row `i 0` lies in tile `(i 0) / 128`,
    whose last-layer point is `3 · ((i 0) / 128) + 2`. -/
theorem cover10 (i : S4096x1.Idx) :
    ∃ t : Fin cfg0.N, (cfg0.win 10).flush t = true ∧ i ∈ ((cfg0.win 10).blk t).view.set := by
  have hi0 : (i 0).val < 4096 := idx2_lt0 i
  have hi1 : (i 1).val < 1 := idx2_lt1 i
  have hN : cfg0.N = 96 := N_0
  let t : Fin cfg0.N := ⟨3 * ((i 0).val / 128) + 2, by omega⟩
  have ht : t.val = 3 * ((i 0).val / 128) + 2 := rfl
  obtain ⟨e0, e1⟩ := idx_w10 t
  refine ⟨t, (flush0_10 t).mpr (by omega), ?_⟩
  rw [mem_blk10]
  intro a
  match a with
  | ⟨0, _⟩ =>
    show win0_10.index t (0 : Fin 2) * 128 ≤ (i 0).val ∧ (i 0).val < win0_10.index t (0 : Fin 2) * 128 + 128
    omega
  | ⟨1, _⟩ =>
    show win0_10.index t (1 : Fin 2) * 1 ≤ (i 1).val ∧ (i 1).val < win0_10.index t (1 : Fin 2) * 1 + 1
    omega

end Cert.KernelIdeal.Blocks

end
-- ==== Proof.KFinal.lean ====
/-
  The kernel's result array, on the extended reals.

  At the last point of batch tile `p` the output block is the head of three layer steps of the tile's input block. Read
  at an index: row `r` of the input block is row `128·p + r` of the input array; the weight blocks of the three points hold
  entries (0,0,0), (1,0,0), (2,0,0) of the four weight arrays; the dense weights and biases are read whole. So entry
  (r,0) of the output block is `Cert.Spec.G` at row `128·p + r`. Only the last point of a tile writes its block back, these
  32 blocks tile the [4096,1] result, and so the result array ends at `Cert.Spec.G` of the argument arrays.
-/
import proofs.«101517_j51651276702509_2_alg».proof.Proof.KFold
import proofs.«101517_j51651276702509_2_alg».proof.Proof.KHead
import proofs.«101517_j51651276702509_2_alg».proof.Proof.KBlocks

set_option maxRecDepth 16384

noncomputable section

namespace Cert.KernelIdeal.Final

open Cert.KernelIdeal Cert.KernelIdeal.Gen Cert.KernelIdeal.Found Cert.KernelIdeal.Fold Cert.KernelIdeal.Pay Cert.KernelIdeal.Blocks
open Idealize.ShloMosaic Idealize.ShloMosaic.TcCoe Idealize.ShloMosaic.ValueIdx Idealize.SL.Sem
open Idealize.ShloMosaic.Pipeline (Dat)

/-- A row of one layer step of a block is one interaction layer of the block's row. -/
theorem row_step (a : Vec Ideal S128x128 .f32) (q k v w : Vec Ideal S1x1x1 .f32) (r : Fin 128) :
    row (step a q k v w) r = Cert.Spec.layer (wt q) (wt k) (wt v) (wt w) (row a r) :=
  funext fun f => layer_at a q k v w r f

/-- The copy of the input block into the scratch changes no entry. -/
theorem row_copy (x : Vec Ideal S128x128 .f32) (r : Fin 128) : row (k0_pay3 x) r = row x r := by
  unfold k0_pay3
  simp only [shapeCast_self]

/-- One tile, over variables: if the block `xb` holds rows `128·p + r` of `X` and the twelve weight blocks hold the
    entries (l,0,0) of the weight arrays, then the head of three steps at (r,0) is the specification at row `128·p + r`. -/
theorem tile_value (X : (⟨2, ![4096, 128]⟩ : Shape).Idx → EReal) (wq wk wv wr : (⟨3, ![3, 1, 1]⟩ : Shape).Idx → EReal)
    (W1 : Vec Ideal S128x256 .f32) (b1 : Vec Ideal S256 .f32) (W2 : Vec Ideal S256x128 .f32) (b2 : Vec Ideal S128 .f32)
    (Wf : Vec Ideal S128x1 .f32) (p : Fin 32) (xb : Vec Ideal S128x128 .f32)
    (q0 k0 v0 w0 q1 k1 v1 w1 q2 k2 v2 w2 : Vec Ideal S1x1x1 .f32)
    (hx : ∀ r f : Fin 128, xb (ix2 r f) = X (ix2 (rowOf p r) f))
    (hq0 : wt q0 = wq (ix3 (0 : Fin 3) (0 : Fin 1) (0 : Fin 1))) (hk0 : wt k0 = wk (ix3 (0 : Fin 3) (0 : Fin 1) (0 : Fin 1))) (hv0 : wt v0 = wv (ix3 (0 : Fin 3) (0 : Fin 1) (0 : Fin 1))) (hw0 : wt w0 = wr (ix3 (0 : Fin 3) (0 : Fin 1) (0 : Fin 1)))
    (hq1 : wt q1 = wq (ix3 (1 : Fin 3) (0 : Fin 1) (0 : Fin 1))) (hk1 : wt k1 = wk (ix3 (1 : Fin 3) (0 : Fin 1) (0 : Fin 1))) (hv1 : wt v1 = wv (ix3 (1 : Fin 3) (0 : Fin 1) (0 : Fin 1))) (hw1 : wt w1 = wr (ix3 (1 : Fin 3) (0 : Fin 1) (0 : Fin 1)))
    (hq2 : wt q2 = wq (ix3 (2 : Fin 3) (0 : Fin 1) (0 : Fin 1))) (hk2 : wt k2 = wk (ix3 (2 : Fin 3) (0 : Fin 1) (0 : Fin 1))) (hv2 : wt v2 = wv (ix3 (2 : Fin 3) (0 : Fin 1) (0 : Fin 1))) (hw2 : wt w2 = wr (ix3 (2 : Fin 3) (0 : Fin 1) (0 : Fin 1)))
    (r : Fin 128) :
    k0_pay2 (step (step (step (k0_pay3 xb) q0 k0 v0 w0) q1 k1 v1 w1) q2 k2 v2 w2) W1 b1 W2 b2 Wf (ix2 r (0 : Fin 1))
      = Cert.Spec.head W1 b1 W2 b2 Wf (Cert.Spec.att X wq wk wv wr (rowOf p r)) := by
  have hrow : row xb r = fun f => X (ix2 (rowOf p r) f) := funext fun f => hx r f
  rw [head_at, row_step, row_step, row_step, row_copy, hrow, hq0, hk0, hv0, hw0, hq1, hk1, hv1, hw1, hq2, hk2, hv2, hw2]
  rfl

variable (m : (ℓ : Loc nD τ sig) → Buf (Elt Ideal) ℓ) (ρ : Dev nD → PrngReg)

/-- The result array: the specification of the argument arrays as launched. -/
abbrev result (c : Dev nD) : Buf (Elt Ideal) ((c : Thread nD τ).loc main_v0) :=
  Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The weight a [1,1,1] block of window `w` holds at point `t` is entry (layer of t, 0, 0) of its array. -/
theorem wt0 (c : Dev nD) (t : Fin cfg0.N) : wt (iblk m c 0 t) = m ((c : Thread nD τ).loc main_arg1) (ix3 (layerOf t) (0 : Fin 1) (0 : Fin 1)) :=
  (extract_eq (iblk m c 0 t)).trans (w_block0 m c t)
theorem wt1 (c : Dev nD) (t : Fin cfg0.N) : wt (iblk m c 1 t) = m ((c : Thread nD τ).loc main_arg2) (ix3 (layerOf t) (0 : Fin 1) (0 : Fin 1)) :=
  (extract_eq (iblk m c 1 t)).trans (w_block1 m c t)
theorem wt2 (c : Dev nD) (t : Fin cfg0.N) : wt (iblk m c 2 t) = m ((c : Thread nD τ).loc main_arg3) (ix3 (layerOf t) (0 : Fin 1) (0 : Fin 1)) :=
  (extract_eq (iblk m c 2 t)).trans (w_block2 m c t)
theorem wt3 (c : Dev nD) (t : Fin cfg0.N) : wt (iblk m c 3 t) = m ((c : Thread nD τ).loc main_arg4) (ix3 (layerOf t) (0 : Fin 1) (0 : Fin 1)) :=
  (extract_eq (iblk m c 3 t)).trans (w_block3 m c t)

/-- What a writing point writes back is its block of the result. -/
theorem flushed_eq (c : Dev nD) (t : Fin cfg0.N) (hf : (cfg0.win 10).flush t = true) :
    (dats m 0 c).flushed 10 t = ((cfg0.win 10).blk t).view.read (Elt Ideal) (result m c) := by
  have h2 : t.val % 3 = 2 := (flush10_iff t).mp hf
  have hN : cfg0.N = 96 := N_0
  have hl2 : layerOf t = (2 : Fin 3) := Fin.ext h2
  have hl1 : layerOf (back t 1) = (1 : Fin 3) := Fin.ext (by show (t.val - 1) % 3 = 1; omega)
  have hl0 : layerOf (back t 2) = (0 : Fin 3) := Fin.ext (by show (t.val - 2) % 3 = 0; omega)
  have hp : tileOf (back t 2) = tileOf t := Fin.ext (by show (t.val - 2) / 3 = t.val / 3; omega)
  rw [Cert.KernelIdeal.Value.flushed10, out_tile m c t h2, whole5, whole6, whole7, whole8, whole9]
  funext y
  obtain ⟨r, z, rfl⟩ : ∃ (r : Fin 128) (z : Fin 1), y = ix2 r z := ⟨y 0, y 1, eq_ix2 y⟩
  obtain rfl : z = 0 := Subsingleton.elim _ _
  show k0_pay2 (stepAt m c t (stepAt m c (back t 1) (stepAt m c (back t 2) (k0_pay3 (iblk m c 4 (back t 2))))))
      (V m c main_arg5) (V m c main_arg6) (V m c main_arg7) (V m c main_arg8) (V m c main_arg9) (ix2 r (0 : Fin 1))
    = result m c (((cfg0.win 10).blk t).view.emb (ix2 r (0 : Fin 1)))
  rw [out_emb]
  refine tile_value (m ((c : Thread nD τ).loc main_arg0)) (m ((c : Thread nD τ).loc main_arg1)) (m ((c : Thread nD τ).loc main_arg2))
    (m ((c : Thread nD τ).loc main_arg3)) (m ((c : Thread nD τ).loc main_arg4))
    (V m c main_arg5) (V m c main_arg6) (V m c main_arg7) (V m c main_arg8) (V m c main_arg9) (tileOf t) (iblk m c 4 (back t 2))
    (iblk m c 0 (back t 2)) (iblk m c 1 (back t 2)) (iblk m c 2 (back t 2)) (iblk m c 3 (back t 2))
    (iblk m c 0 (back t 1)) (iblk m c 1 (back t 1)) (iblk m c 2 (back t 1)) (iblk m c 3 (back t 1))
    (iblk m c 0 t) (iblk m c 1 t) (iblk m c 2 t) (iblk m c 3 t)
    (fun r f => by rw [x_block m c (back t 2) r f, hp])
    (by rw [wt0, hl0]) (by rw [wt1, hl0]) (by rw [wt2, hl0]) (by rw [wt3, hl0])
    (by rw [wt0, hl1]) (by rw [wt1, hl1]) (by rw [wt2, hl1]) (by rw [wt3, hl1])
    (by rw [wt0, hl2]) (by rw [wt1, hl2]) (by rw [wt2, hl2]) (by rw [wt3, hl2]) r

/-- The result array after the run: the writing points' blocks cover it, and each is its block of the result. -/
theorem final (c : Dev nD) : (dats m 0 c).arrAt 10 cfg0.N = result m c :=
  (dats m 0 c).arrAt_eq_of_cover 10 (result m c) (flushed_eq m c) cover10

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.KernelIdeal.Final

end
-- ==== Proof.lean ====
/-
  One kernel against its reference: three "interacting" (attention-style) layers on 4096 rows of 128 fields, then a
  small dense head giving one number per row.

  A layer sends a row `a` to the row whose entry `f` is `max (Σ_g softmax_g (a_f·wq · a_g·wk) · (a_g·wv) + a_f·wr, 0)`,
  with four scalar weights per layer; the head is two dense layers with a bias and a clamp at zero, then a product
  with a [128, 1] matrix. The kernel works on tiles of 128 rows, three consecutive grid points per tile, one per layer:
  the first copies the tile's rows into a block it keeps, each replaces that block by the layer's image of it, and
  the third also applies the head and writes the tile's 128 results back. The reference applies the same layers and
  head to the whole array, one array operation at a time. On the extended reals both compute `Cert.Spec.G` of the
  ten argument arrays, entry by entry; so from equal arguments the result arrays are equal, and each program leaves
  its arguments as it found them. No finiteness of the inputs is used: where the programs differ, the steps are
  identities for every extended real — a sum over an axis of one entry is its one term, a maximum taken again against
  the value it started from changes nothing, a sum started from zero is the sum, a change of float format is the
  identity, and a finite sum does not depend on the order of its terms.
-/
import proofs.«101517_j51651276702509_2_alg».proof.Defs
import proofs.«101517_j51651276702509_2_alg».proof.Proof.Gen.Kernel
import proofs.«101517_j51651276702509_2_alg».proof.Proof.Gen.Kernel.Frame
import proofs.«101517_j51651276702509_2_alg».proof.Proof.Gen.KernelIdeal
import proofs.«101517_j51651276702509_2_alg».proof.Proof.Gen.KernelIdeal.Frame
import proofs.«101517_j51651276702509_2_alg».proof.Proof.Gen.ReferenceIdeal
import proofs.«101517_j51651276702509_2_alg».proof.Proof.Gen.Pre_finite_inputs
import proofs.«101517_j51651276702509_2_alg».proof.Proof.RefValue
import proofs.«101517_j51651276702509_2_alg».proof.Proof.KFinal
import Idealize.ShloMosaic.Adequacy
import Idealize.ShloMosaic.Init

noncomputable section

namespace Cert.Proof

open Idealize.ShloMosaic Idealize.SL.Sem

/-- The specification at equal arguments is equal. -/
theorem G_congr {X X' : (⟨2, ![4096, 128]⟩ : Shape).Idx → EReal}
    {wq wq' : (⟨3, ![3, 1, 1]⟩ : Shape).Idx → EReal}
    {wk wk' : (⟨3, ![3, 1, 1]⟩ : Shape).Idx → EReal}
    {wv wv' : (⟨3, ![3, 1, 1]⟩ : Shape).Idx → EReal}
    {wr wr' : (⟨3, ![3, 1, 1]⟩ : Shape).Idx → EReal}
    {W1 W1' : (⟨2, ![128, 256]⟩ : Shape).Idx → EReal}
    {b1 b1' : (⟨1, ![256]⟩ : Shape).Idx → EReal}
    {W2 W2' : (⟨2, ![256, 128]⟩ : Shape).Idx → EReal}
    {b2 b2' : (⟨1, ![128]⟩ : Shape).Idx → EReal}
    {Wf Wf' : (⟨2, ![128, 1]⟩ : Shape).Idx → EReal}
    (h0 : X' = X) (h1 : wq' = wq) (h2 : wk' = wk) (h3 : wv' = wv) (h4 : wr' = wr) (h5 : W1' = W1) (h6 : b1' = b1) (h7 : W2' = W2) (h8 : b2' = b2) (h9 : Wf' = Wf) :
    Cert.Spec.G X' wq' wk' wv' wr' W1' b1' W2' b2' Wf' = Cert.Spec.G X wq wk wv wr W1 b1 W2 b2 Wf := by
  subst h0 h1 h2 h3 h4 h5 h6 h7 h8 h9
  rfl

/-- The kernel as printed runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its reading on the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

/-- On the extended reals the kernel's result array ends at `G` of its arguments and the reference's at its last
    stage of its own, which is `G` of them too; the arguments agree, so the results are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  exact (Cert.ReferenceIdeal.ReadP.val_main_v93_eq m' c).trans
    ((Cert.RefValue.ref_eq_G _ _ _ _ _ _ _ _ _ _).trans (G_congr h0 h1 h2 h3 h4 h5 h6 h7 h8 h9))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
